-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096x1 : Shape := ⟨2, ![4096, 1]⟩
abbrev S1024x512 : Shape := ⟨2, ![1024, 512]⟩
abbrev S1024x1 : Shape := ⟨2, ![1024, 1]⟩
abbrev S1024 : Shape := ⟨1, ![1024]⟩
abbrev S1x4096 : Shape := ⟨2, ![1, 4096]⟩
abbrev S1x1024 : Shape := ⟨2, ![1, 1024]⟩
abbrev S1024x1024 : Shape := ⟨2, ![1024, 1024]⟩
abbrev S_ : Shape := ⟨0, ![]⟩

abbrev nBuf : Space → Nat
  | .hbm => 14
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x512, .bf16⟩
  | .hbm, ⟨6, _⟩ => ⟨S4096x512, .bf16⟩
  | .hbm, ⟨7, _⟩ => ⟨S1x4096, .f32⟩
  | .hbm, ⟨8, _⟩ => ⟨S1x4096, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1, .f32⟩
  | .local _ .vmem, ⟨19, _⟩ => ⟨S1024x1, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_18 : BitVec 32 := 0#32
  let v36 : BitVec 1 := Scalar.cmpi .ne v35 c0_i32_18
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  transposes_S4096x1_S1x4096_1_0 : S4096x1.Transposes [1, 0] S1x4096
  shapeCasts_S1024x1_S1024x1 : S1024x1.ShapeCasts S1024x1
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S4096x1_S_d0_1 : S4096x1.ReducesTo [0, 1] S_
  h_S_ : 0 < S_.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .bf16 = 32 ∨ (Rect.block (s := S4096x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x512.size a
  hwx0_6 : ∀ i : grid0.Coords, EltTy.bits .bf16 = 32 ∨ (Rect.block (s := S4096x512) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .bf16 = 32 ∨ (Rect.block (s := S4096x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S4096x1.size a
  hwx1_5 : ∀ i : grid1.Coords, EltTy.bits .f32 = 32 ∨ (Rect.block (s := S4096x1) S1024x1.size (cc1_transform_5 i) (hinb1_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_4) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x4096, .f32⟩
  | .hbm, ⟨14, _⟩ => ⟨S4096x1, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.FrameKernel.Reg0.lean ====
/-
  Region 0 of the kernel's program: the preparation call, over a grid of 4 points, each point working on a block of
  1024 rows of the two arguments. Stated at a parameter `V`, the TensorCore's buffer contents when the region is entered:
  each window's block at a point, what the body leaves in each of the five output windows' buffers as a function of the
  two input blocks, the body's triple, the pipeline's proof data and the body obligation.
-/
import proofs.«124219_j11227044511928_2_alg».proof.Proof.Gen.Kernel.Launch
import proofs.«124219_j11227044511928_2_alg».proof.Proof.Gen.Kernel.Skeleton
import proofs.«124219_j11227044511928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 512 entries: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rWide : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

/-! ## What the body leaves in each output window's buffer -/

/-- Window 2's buffer after the body: the row sums of squares of the first input block. -/
def out0_2 (x0 : Vec F S1024x512 .f32) : Vec F S1024x1 .f32 :=
  View.canon [⟨rCol, k0_pay1 (View.ld x0 rWide)⟩]
/-- Window 3's buffer after the body: the row sums of squares of the second input block. -/
def out0_3 (x1 : Vec F S1024x512 .f32) : Vec F S1024x1 .f32 :=
  View.canon [⟨rCol, k0_pay2 (View.ld x1 rWide)⟩]
/-- Window 4's buffer after the body: the shifted row distances of the two input blocks. -/
def out0_4 (x0 x1 : Vec F S1024x512 .f32) : Vec F S1024x1 .f32 :=
  View.canon [⟨rCol, k0_pay3 (View.ld x0 rWide) (View.ld x1 rWide)⟩]
/-- Window 5's buffer after the body: the first input block in the narrower format. -/
def out0_5 (x0 : Vec F S1024x512 .f32) : Vec F S1024x512 .bf16 :=
  View.canon [⟨rWide, k0_pay4 (View.ld x0 rWide)⟩]
/-- Window 6's buffer after the body: the second input block in the narrower format. -/
def out0_6 (x1 : Vec F S1024x512 .f32) : Vec F S1024x512 .bf16 :=
  View.canon [⟨rWide, k0_pay5 (View.ld x1 rWide)⟩]

/-- A whole-buffer store covers a column buffer. -/
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y
/-- A whole-buffer store covers a wide buffer. -/
theorem coverWide (p0 : Vec F S1024x512 .bf16) (y : S1024x512.Idx) :
    ∃ pc ∈ ([⟨rWide, p0⟩] : List (View.Piece (Elt F) S1024x512 .bf16)), y ∈ pc.1.set :=
  View.cover_of_tiled [⟨rWide, p0⟩] S1024x512.size (by rfl) y

/-! ## The body's triple -/

set_option maxHeartbeats 1000000 in
/-- The kernel body on whole staging memrefs, the two inputs' at read contents `x0`, `x1` and the five outputs' at
    anything, runs to the continuation holding the inputs' as they were and each output's at its function of the inputs'. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x1 .f32) (harg4 : arg4.IsWhole)
    (arg5 : Memref sig .tc .vmem S1024x1 .f32) (harg5 : arg5.IsWhole)
    (arg6 : Memref sig .tc .vmem S1024x512 .bf16) (harg6 : arg6.IsWhole) (arg7 : Memref sig .tc .vmem S1024x512 .bf16) (harg7 : arg7.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)
            ∗ owns (c : Thread nD τ) arg6 fullShare (out0_5 x0) ∗ owns (c : Thread nD τ) arg7 fullShare (out0_6 x1)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverCol _)
  isplitl [H4]
  · iexists _; isplitr
    swap; · iexact H4
    ipureintro
    exact View.read_writes_eq_canon _ _ _ (coverCol _)
  isplitl [H5]
  · iexists _; isplitr
    swap; · iexact H5
    ipureintro
    exact View.read_writes_eq_canon _ _ _ (coverCol _)
  isplitl [H6]
  · iexists _; isplitr
    swap; · iexact H6
    ipureintro
    exact View.read_writes_eq_canon _ _ _ (coverWide _)
  iexists _; isplitr
  swap; · iexact H7
  ipureintro
  exact View.read_writes_eq_canon _ _ _ (coverWide _)

/-! ## The pipeline's proof data -/

/-- The proof data of the region on core `c`: the arrays as the region finds them; after the body at point `t` each
    input's buffer at its block and each output's at its function of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
    | ⟨5, _⟩ => out0_5 (iblk0 V c 0 t)
    | ⟨6, _⟩ => out0_6 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameKernel.Reg1Runs.lean ====
/-
  The second kernel region (the pairwise hinge, accumulated over the column blocks) at the contents `V` its arrays hold when it
  is entered: what its runs are stated over. The region's grid is 4 × 4, the point `t` at row block `t / 4` and column block
  `t % 4`. The body clears its accumulator at the first column block (`t % 4 = 0`), adds the block's row sums of the hinge
  at every point, and copies the accumulator to the output block at the last column block (`t % 4 = 3`); the output window
  is idle, and not written back, at the other points. Here: each window's block at a point, that an input's staging buffer
  holds its block whether fetched at the point or not, the two conditions in closed form over the grid, where the output
  is idle, and the region's invariant with the accumulator singled out.
-/
import proofs.«124219_j11227044511928_2_alg».proof.Proof.Gen.Kernel.Launch
import proofs.«124219_j11227044511928_2_alg».proof.Proof.Gen.Kernel.Skeleton
import proofs.«124219_j11227044511928_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first column block": the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last column block": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column block it is live. -/
theorem liveAt1_5 : ∀ t : Fin cfg1.N, cond1_1 (grid1.coords t) → cfg1.idle 5 (grid1.coords t) = false := by decide +kernel

/-! ## The staging memrefs and the accumulator -/

/-- One staging buffer of the output window, through which its contents are stated. -/
abbrev VO1_5 : View sig .tc .vmem S1024x1 .f32 := (Memref.whole cc1_stg5_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x1 .f32 := Memref.whole cc1_scratch0
abbrev VS1_0 : View sig .tc .vmem S1024x1 .f32 := scM1_0.view

/-- The core's scoped buffers other than this region's staging buffers and its accumulator (the first region's staging
    buffers), each at some contents: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class's region invariant with the accumulator singled out as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, Idealize.SL.BI.bigSepL_singleton]
  rfl

end Cert.Kernel.Hand

end
-- ==== Proof.FrameKernel.Reg1RunA.lean ====
/-
  The second region's body at a point of the FIRST column block: the accumulator is cleared, then this block's row sums of the hinge are added to it; nothing is stored into the output, which is handed back as found.
-/
import proofs.«124219_j11227044511928_2_alg».proof.Proof.FrameKernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x512 .bf16) (x1 : Vec F S1024x512 .bf16) (x2 : Vec F S1024x1 .f32) (x3 : Vec F S1x1024 .f32) (x4 : Vec F S1x1024 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.FrameKernel.Reg1RunB.lean ====
/-
  The second region's body at a point of a MIDDLE column block: this block's row sums of the hinge are added to the accumulator, which holds what the point before left; nothing is stored into the output, which is handed back as found.
-/
import proofs.«124219_j11227044511928_2_alg».proof.Proof.FrameKernel.Reg1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x512 .bf16) (x1 : Vec F S1024x512 .bf16) (x2 : Vec F S1024x1 .f32) (x3 : Vec F S1x1024 .f32) (x4 : Vec F S1x1024 .f32) (xs0 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.FrameKernel.Reg1RunC.lean ====
/-
  The second region's body at a point of the LAST column block: this block's row sums of the hinge are added to the accumulator, which holds what the point before left, and the accumulator is then copied into the output's buffer.
-/
import proofs.«124219_j11227044511928_2_alg».proof.Proof.FrameKernel.Reg1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x512 .bf16) (x1 : Vec F S1024x512 .bf16) (x2 : Vec F S1024x1 .f32) (x3 : Vec F S1x1024 .f32) (x4 : Vec F S1x1024 .f32) (xs0 : Vec F S1024x1 .f32) :
    Σ' (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.FrameKernel.Reg1.lean ====
/-
  The second kernel region, point by point: what each of the body's three cases leaves in the accumulator and in the output's
  buffer, the accumulation over the sixteen grid points, the region's invariant (before the first point the class's; afterwards
  the accumulator at what the point before left, the other scoped buffers unopened, the generator register at some state), the
  proof data and the body obligation.
-/
import proofs.«124219_j11227044511928_2_alg».proof.Proof.FrameKernel.Reg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a point of the first column block, on the point's staging memrefs and input blocks. -/
abbrev ptA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t)
/-- At a point of a middle column block, the accumulator entering at `xs0`. -/
abbrev ptB (c : Dev nD) (t : Fin cfg1.N) (hc0 : ¬cond1_0 (grid1.coords t)) (hc1 : ¬cond1_1 (grid1.coords t)) (xs0 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) xs0
/-- At a point of the last column block, the accumulator entering at `xs0`. -/
abbrev ptC (c : Dev nD) (t : Fin cfg1.N) (hc0 : ¬cond1_0 (grid1.coords t)) (hc1 : cond1_1 (grid1.coords t)) (xs0 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) xs0

/-- What a list of pieces leaves in the accumulator, read back over junk. -/
abbrev accOf (L : List (View.Piece (Elt F) S1024x1 .f32)) : Vec F S1024x1 .f32 := VS1_0.read (Elt F) (VS1_0.writes (Elt F) VS1_0.junk L)
/-- What a list of pieces leaves in the output's buffer, read back over junk. -/
abbrev outOf (L : List (View.Piece (Elt F) S1024x1 .f32)) : Vec F S1024x1 .f32 := VO1_5.read (Elt F) (VO1_5.writes (Elt F) VO1_5.junk L)

/-- Each case's stores into the accumulator tile it; so do the last case's into the output's buffer. -/
theorem scoverA (c : Dev nD) (t : Fin cfg1.N) (hc0 : cond1_0 (grid1.coords t)) (hc1 : ¬cond1_1 (grid1.coords t)) (y : S1024x1.Idx) :
    ∃ pc ∈ (ptA V c t hc0 hc1).2.1, y ∈ pc.1.set :=
  View.cover_of_tiledL (ptA V c t hc0 hc1).2.1 S1024x1.size (by sl_kernel_rfl) y
theorem scoverB (c : Dev nD) (t : Fin cfg1.N) (hc0 : ¬cond1_0 (grid1.coords t)) (hc1 : ¬cond1_1 (grid1.coords t)) (xs0 : Vec F S1024x1 .f32) (y : S1024x1.Idx) :
    ∃ pc ∈ (ptB V c t hc0 hc1 xs0).2.1, y ∈ pc.1.set :=
  View.cover_of_tiledL (ptB V c t hc0 hc1 xs0).2.1 S1024x1.size (by sl_kernel_rfl) y
theorem scoverC (c : Dev nD) (t : Fin cfg1.N) (hc0 : ¬cond1_0 (grid1.coords t)) (hc1 : cond1_1 (grid1.coords t)) (xs0 : Vec F S1024x1 .f32) (y : S1024x1.Idx) :
    ∃ pc ∈ (ptC V c t hc0 hc1 xs0).2.1, y ∈ pc.1.set :=
  View.cover_of_tiledL (ptC V c t hc0 hc1 xs0).2.1 S1024x1.size (by sl_kernel_rfl) y
theorem coverC (c : Dev nD) (t : Fin cfg1.N) (hc0 : ¬cond1_0 (grid1.coords t)) (hc1 : cond1_1 (grid1.coords t)) (xs0 : Vec F S1024x1 .f32) (y : S1024x1.Idx) :
    ∃ pc ∈ (ptC V c t hc0 hc1 xs0).1, y ∈ pc.1.set :=
  View.cover_of_tiledL (ptC V c t hc0 hc1 xs0).1 S1024x1.size (by sl_kernel_rfl) y

/-! ## What the output's buffer and the accumulator hold after each point -/

/-- THE ACCUMULATION: after the body at position `n`, the output's buffer (a placeholder where the window is idle) and
    the accumulator: the case the point is in, run on the point's blocks, the accumulator entering at what position `n - 1` left. -/
def outsAt1 (c : Dev nD) : (n : ℕ) → n < cfg1.N → Vec F S1024x1 .f32 × Vec F S1024x1 .f32
  | 0, hn =>
    let r := ptA V c ⟨0, hn⟩ ((hcond1_0 ⟨0, hn⟩).mpr (Nat.zero_mod _)) (fun h => (fun h => by (try dsimp only at h); omega) ((hcond1_1 ⟨0, hn⟩).mp h))
    (outOf r.1, accOf r.2.1)
  | n + 1, hn =>
    if h0 : (n + 1) % 4 = 0 then
      if h1 : (n + 1) % 4 = 3 then
        False.elim (by omega)
      else
        let r := ptA V c ⟨n + 1, hn⟩ ((hcond1_0 ⟨n + 1, hn⟩).mpr h0) (fun h => h1 ((hcond1_1 ⟨n + 1, hn⟩).mp h))
        (outOf r.1, accOf r.2.1)
    else
      if h1 : (n + 1) % 4 = 3 then
        let r := ptC V c ⟨n + 1, hn⟩ (fun h => h0 ((hcond1_0 ⟨n + 1, hn⟩).mp h)) ((hcond1_1 ⟨n + 1, hn⟩).mpr h1) (outsAt1 c n (Nat.lt_of_succ_lt hn)).2
        (outOf r.1, accOf r.2.1)
      else
        let r := ptB V c ⟨n + 1, hn⟩ (fun h => h0 ((hcond1_0 ⟨n + 1, hn⟩).mp h)) (fun h => h1 ((hcond1_1 ⟨n + 1, hn⟩).mp h)) (outsAt1 c n (Nat.lt_of_succ_lt hn)).2
        (outOf r.1, accOf r.2.1)

/-- At a point of the first column block. -/
theorem outsAt1_A (c : Dev nD) (t : Fin cfg1.N) (h0 : t.val % 4 = 0) (h1 : ¬t.val % 4 = 3) :
    outsAt1 V c t.val t.isLt
      = (outOf (ptA V c t ((hcond1_0 t).mpr h0) (fun h => h1 ((hcond1_1 t).mp h))).1, accOf (ptA V c t ((hcond1_0 t).mpr h0) (fun h => h1 ((hcond1_1 t).mp h))).2.1) := by
  obtain ⟨n, hn⟩ := t
  cases n with
  | zero => exact rfl
  | succ n => exact (dif_pos h0).trans ((dif_neg h1).trans rfl)

/-- At a point of a middle column block: over what the point before left. -/
theorem outsAt1_B (c : Dev nD) (t : Fin cfg1.N) (h0 : ¬t.val % 4 = 0) (h1 : ¬t.val % 4 = 3) :
    outsAt1 V c t.val t.isLt
      = (outOf (ptB V c t (fun h => h0 ((hcond1_0 t).mp h)) (fun h => h1 ((hcond1_1 t).mp h)) (outsAt1 V c (t.val - 1) (Nat.lt_of_le_of_lt (Nat.sub_le _ _) t.isLt)).2).1,
         accOf (ptB V c t (fun h => h0 ((hcond1_0 t).mp h)) (fun h => h1 ((hcond1_1 t).mp h)) (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

/-- At a point of the last column block: over what the point before left. -/
theorem outsAt1_C (c : Dev nD) (t : Fin cfg1.N) (h0 : ¬t.val % 4 = 0) (h1 : t.val % 4 = 3) :
    outsAt1 V c t.val t.isLt
      = (outOf (ptC V c t (fun h => h0 ((hcond1_0 t).mp h)) ((hcond1_1 t).mpr h1) (outsAt1 V c (t.val - 1) (Nat.lt_of_le_of_lt (Nat.sub_le _ _) t.isLt)).2).1,
         accOf (ptC V c t (fun h => h0 ((hcond1_0 t).mp h)) ((hcond1_1 t).mpr h1) (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (every scoped buffer that is no staging buffer at
    anything); afterwards the accumulator at what the point before left, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The region's proof data on core `c`: the arrays as the region finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t) := by
  refine ⟨?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]

set_option maxHeartbeats 4800000 in
/-- The body at any point: the inputs' memrefs hold their blocks; the closed forms say which case the point is in; the
    invariant hands the body the accumulator (at what the point before left; at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4⟩ := leaves_in V c t
  rw [hl0, hl1, hl2, hl3, hl4]
  have hN : t.val < 16 := lt_of_lt_of_eq t.isLt (show cfg1.N = 16 from N_1)
  by_cases h0 : t.val % 4 = 0
  · have h1 : ¬ t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverA V c t _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverA V c t _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptC V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverC V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptB V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Cert.Kernel.Hand

end
-- ==== Proof.FrameKernel.Run.lean ====
/-
  The whole program as a run: the buffers' contents at every boundary of @main (launch; after the first kernel region; after the
  two transposes; after the second kernel region; after the final sum and subtraction), the two regions as segment records
  around the thread state "every unscoped buffer at the boundary's contents, the generator register at some state, nothing
  owed", @main as the list of its four segments, and the run: every weakly fair execution terminates and every final memory
  holds each unscoped buffer at the last boundary's contents. The frame claim and the value of the result are read off it.
-/
import proofs.«124219_j11227044511928_2_alg».proof.Proof.FrameKernel.Reg0
import proofs.«124219_j11227044511928_2_alg».proof.Proof.FrameKernel.Reg1
import proofs.«124219_j11227044511928_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the first region's entry). -/
abbrev W0 : Dev nD → Valuation τ sig (Elt F) := fun c b => (s₀ m ρ).mem ((c : Dev nD), b)
abbrev VW0 : (c : Dev nD) → (b : Ref sig .tc) → Buf (Elt F) ((c : Thread nD τ).loc b) := fun c b => W0 m ρ c b
/-- After the first region: its arrays at what its write-backs leave, every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VW1 : (c : Dev nD) → (b : Ref sig .tc) → Buf (Elt F) ((c : Thread nD τ).loc b) := fun c b => W1 m ρ c b
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the two transposes (the second region's entry). -/
abbrev W2 : Dev nD → Valuation τ sig (Elt F) := fun c => StableHlo.after hostOps1 (W1 m ρ c)
abbrev VW2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (VW2 m ρ) c).arrAt w cfg1.N
theorem W3_arr (c : Dev nD) (w : Fin cfg1.W) :
    W3 m ρ c (Proc.devRef .tc (Pipeline.arrRef spec1 w)) = (dat1 (VW2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VW3 : (c : Dev nD) → (b : Ref sig .tc) → Buf (Elt F) ((c : Thread nD τ).loc b) := fun c b => W3 m ρ c b
theorem hF1 (c : Dev nD) (w : Fin cfg1.W) : (dat1 (VW2 m ρ) c).arrAt w cfg1.N = VW3 m ρ c (Pipeline.arrRef spec1 w) :=
  (W3_arr m ρ c w).symm
theorem hrest1 (c : Dev nD) : ∀ b, b ∉ Finset.univ.image (Pipeline.arrRef spec1) → VW3 m ρ c b = VW2 m ρ c b :=
  fun b hb => W3_of_ne m ρ c b fun w e => hb (Finset.mem_image.mpr ⟨w, Finset.mem_univ _, e⟩)
/-- After the final sum and subtraction: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (VW0 m ρ) c).arrAt_in 0 rfl _).trans (A_eq0 (VW0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := (W1_arr m ρ c 1).trans (((dat0 (VW0 m ρ) c).arrAt_in 1 rfl _).trans (A_eq0 (VW0 m ρ) c 1))
    _ = m ((c : Thread nD τ).loc main_arg1) := rfl

/-! ## The proof data family and the thread state -/

abbrev admH : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) admH p) c
  | ⟨0, _⟩ => fun c => dat0 (VW0 m ρ) c
  | ⟨1, _⟩ => fun c => dat1 (VW2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at the launch contents, left at `W1`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the accumulator lives inside the
    region's invariant, taken from the class's at the first point and given back after the last. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VW2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (admH 1).1
          ∗ Pipeline.scopedRest (Pipeline.pin (pcfgs (F := F)) admH 1).spec c) : sProp 𝕄) ⊢ Pipeline.ΦA spec1 c := by
      unfold Pipeline.ΦA
      iintro ⟨Hp, -, Hr⟩
      isplitl [Hr]; · iexact Hr
      iexact Hp
    exact h1.trans (hin1 (VW2 m ρ) c)
  hout c := by
    rw [Pipeline.ownSems0_none]
    have h1 : (Pipeline.ΦA spec1 c : sProp 𝕄) ⊢ iprop((∃ r, prngReg c r) ∗ BI.emp
          ∗ Pipeline.scopedRest (Pipeline.pin (pcfgs (F := F)) admH 1).spec c) := by
      unfold Pipeline.ΦA
      iintro ⟨Hr, Hp⟩
      isplitl [Hp]; · iexact Hp
      isplitr; · iempintro
      iexact Hr
    exact (hout1 (VW2 m ρ) c).trans h1
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VW2 m ρ c) (VW3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, and every
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (StableHlo.after hostOps2 (W3 m ρ c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run m ρ)

end Cert.Kernel.Hand

end
-- ==== Proof.FrameKernelIdeal.Reg0.lean ====
/-
  Region 0 of the kernel's program: the preparation call, over a grid of 4 points, each point working on a block of
  1024 rows of the two arguments. Stated at a parameter `V`, the TensorCore's buffer contents when the region is entered:
  each window's block at a point, what the body leaves in each of the five output windows' buffers as a function of the
  two input blocks, the body's triple, the pipeline's proof data and the body obligation.
-/
import proofs.«124219_j11227044511928_2_alg».proof.Proof.Gen.KernelIdeal.Launch
import proofs.«124219_j11227044511928_2_alg».proof.Proof.Gen.KernelIdeal.Skeleton
import proofs.«124219_j11227044511928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 512 entries: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rWide : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

/-! ## What the body leaves in each output window's buffer -/

/-- Window 2's buffer after the body: the row sums of squares of the first input block. -/
def out0_2 (x0 : Vec F S1024x512 .f32) : Vec F S1024x1 .f32 :=
  View.canon [⟨rCol, k0_pay1 (View.ld x0 rWide)⟩]
/-- Window 3's buffer after the body: the row sums of squares of the second input block. -/
def out0_3 (x1 : Vec F S1024x512 .f32) : Vec F S1024x1 .f32 :=
  View.canon [⟨rCol, k0_pay2 (View.ld x1 rWide)⟩]
/-- Window 4's buffer after the body: the shifted row distances of the two input blocks. -/
def out0_4 (x0 x1 : Vec F S1024x512 .f32) : Vec F S1024x1 .f32 :=
  View.canon [⟨rCol, k0_pay3 (View.ld x0 rWide) (View.ld x1 rWide)⟩]
/-- Window 5's buffer after the body: the first input block in the narrower format. -/
def out0_5 (x0 : Vec F S1024x512 .f32) : Vec F S1024x512 .bf16 :=
  View.canon [⟨rWide, k0_pay4 (View.ld x0 rWide)⟩]
/-- Window 6's buffer after the body: the second input block in the narrower format. -/
def out0_6 (x1 : Vec F S1024x512 .f32) : Vec F S1024x512 .bf16 :=
  View.canon [⟨rWide, k0_pay5 (View.ld x1 rWide)⟩]

/-- A whole-buffer store covers a column buffer. -/
theorem coverCol (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y
/-- A whole-buffer store covers a wide buffer. -/
theorem coverWide (p0 : Vec F S1024x512 .bf16) (y : S1024x512.Idx) :
    ∃ pc ∈ ([⟨rWide, p0⟩] : List (View.Piece (Elt F) S1024x512 .bf16)), y ∈ pc.1.set :=
  View.cover_of_tiled [⟨rWide, p0⟩] S1024x512.size (by rfl) y

/-! ## The body's triple -/

set_option maxHeartbeats 1000000 in
/-- The kernel body on whole staging memrefs, the two inputs' at read contents `x0`, `x1` and the five outputs' at
    anything, runs to the continuation holding the inputs' as they were and each output's at its function of the inputs'. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x1 .f32) (harg4 : arg4.IsWhole)
    (arg5 : Memref sig .tc .vmem S1024x1 .f32) (harg5 : arg5.IsWhole)
    (arg6 : Memref sig .tc .vmem S1024x512 .bf16) (harg6 : arg6.IsWhole) (arg7 : Memref sig .tc .vmem S1024x512 .bf16) (harg7 : arg7.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)
            ∗ owns (c : Thread nD τ) arg6 fullShare (out0_5 x0) ∗ owns (c : Thread nD τ) arg7 fullShare (out0_6 x1)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverCol _)
  isplitl [H4]
  · iexists _; isplitr
    swap; · iexact H4
    ipureintro
    exact View.read_writes_eq_canon _ _ _ (coverCol _)
  isplitl [H5]
  · iexists _; isplitr
    swap; · iexact H5
    ipureintro
    exact View.read_writes_eq_canon _ _ _ (coverCol _)
  isplitl [H6]
  · iexists _; isplitr
    swap; · iexact H6
    ipureintro
    exact View.read_writes_eq_canon _ _ _ (coverWide _)
  iexists _; isplitr
  swap; · iexact H7
  ipureintro
  exact View.read_writes_eq_canon _ _ _ (coverWide _)

/-! ## The pipeline's proof data -/

/-- The proof data of the region on core `c`: the arrays as the region finds them; after the body at point `t` each
    input's buffer at its block and each output's at its function of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
    | ⟨5, _⟩ => out0_5 (iblk0 V c 0 t)
    | ⟨6, _⟩ => out0_6 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKernelIdeal.Reg1Runs.lean ====
/-
  The second kernel region (the pairwise hinge, accumulated over the column blocks) at the contents `V` its arrays hold when it
  is entered: what its runs are stated over. The region's grid is 4 × 4, the point `t` at row block `t / 4` and column block
  `t % 4`. The body clears its accumulator at the first column block (`t % 4 = 0`), adds the block's row sums of the hinge
  at every point, and copies the accumulator to the output block at the last column block (`t % 4 = 3`); the output window
  is idle, and not written back, at the other points. Here: each window's block at a point, that an input's staging buffer
  holds its block whether fetched at the point or not, the two conditions in closed form over the grid, where the output
  is idle, and the region's invariant with the accumulator singled out.
-/
import proofs.«124219_j11227044511928_2_alg».proof.Proof.Gen.KernelIdeal.Launch
import proofs.«124219_j11227044511928_2_alg».proof.Proof.Gen.KernelIdeal.Skeleton
import proofs.«124219_j11227044511928_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first column block": the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last column block": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column block it is live. -/
theorem liveAt1_5 : ∀ t : Fin cfg1.N, cond1_1 (grid1.coords t) → cfg1.idle 5 (grid1.coords t) = false := by decide +kernel

/-! ## The staging memrefs and the accumulator -/

/-- One staging buffer of the output window, through which its contents are stated. -/
abbrev VO1_5 : View sig .tc .vmem S1024x1 .f32 := (Memref.whole cc1_stg5_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x1 .f32 := Memref.whole cc1_scratch0
abbrev VS1_0 : View sig .tc .vmem S1024x1 .f32 := scM1_0.view

/-- The core's scoped buffers other than this region's staging buffers and its accumulator (the first region's staging
    buffers), each at some contents: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class's region invariant with the accumulator singled out as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, Idealize.SL.BI.bigSepL_singleton]
  rfl

end Cert.KernelIdeal.Hand

end
-- ==== Proof.FrameKernelIdeal.Reg1RunA.lean ====
/-
  The second region's body at a point of the FIRST column block: the accumulator is cleared, then this block's row sums of the hinge are added to it; nothing is stored into the output, which is handed back as found.
-/
import proofs.«124219_j11227044511928_2_alg».proof.Proof.FrameKernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x512 .bf16) (x1 : Vec F S1024x512 .bf16) (x2 : Vec F S1024x1 .f32) (x3 : Vec F S1x1024 .f32) (x4 : Vec F S1x1024 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.FrameKernelIdeal.Reg1RunB.lean ====
/-
  The second region's body at a point of a MIDDLE column block: this block's row sums of the hinge are added to the accumulator, which holds what the point before left; nothing is stored into the output, which is handed back as found.
-/
import proofs.«124219_j11227044511928_2_alg».proof.Proof.FrameKernelIdeal.Reg1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x512 .bf16) (x1 : Vec F S1024x512 .bf16) (x2 : Vec F S1024x1 .f32) (x3 : Vec F S1x1024 .f32) (x4 : Vec F S1x1024 .f32) (xs0 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.FrameKernelIdeal.Reg1RunC.lean ====
/-
  The second region's body at a point of the LAST column block: this block's row sums of the hinge are added to the accumulator, which holds what the point before left, and the accumulator is then copied into the output's buffer.
-/
import proofs.«124219_j11227044511928_2_alg».proof.Proof.FrameKernelIdeal.Reg1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body on whole staging memrefs in this case: the pieces its stores leave in the output's buffer and in the accumulator
    (last first), with the proof that from the inputs' buffers at their contents it runs to the continuation holding the
    inputs' as they were and each stored buffer with its pieces written. The pieces are found by the run itself. -/
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x512 .bf16) (x1 : Vec F S1024x512 .bf16) (x2 : Vec F S1024x1 .f32) (x3 : Vec F S1x1024 .f32) (x4 : Vec F S1x1024 .f32) (xs0 : Vec F S1024x1 .f32) :
    Σ' (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.FrameKernelIdeal.Reg1.lean ====
/-
  The second kernel region, point by point: what each of the body's three cases leaves in the accumulator and in the output's
  buffer, the accumulation over the sixteen grid points, the region's invariant (before the first point the class's; afterwards
  the accumulator at what the point before left, the other scoped buffers unopened, the generator register at some state), the
  proof data and the body obligation.
-/
import proofs.«124219_j11227044511928_2_alg».proof.Proof.FrameKernelIdeal.Reg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The body's run at a point of the first column block, on the point's staging memrefs and input blocks. -/
abbrev ptA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t)
/-- At a point of a middle column block, the accumulator entering at `xs0`. -/
abbrev ptB (c : Dev nD) (t : Fin cfg1.N) (hc0 : ¬cond1_0 (grid1.coords t)) (hc1 : ¬cond1_1 (grid1.coords t)) (xs0 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) xs0
/-- At a point of the last column block, the accumulator entering at `xs0`. -/
abbrev ptC (c : Dev nD) (t : Fin cfg1.N) (hc0 : ¬cond1_0 (grid1.coords t)) (hc1 : cond1_1 (grid1.coords t)) (xs0 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) xs0

/-- What a list of pieces leaves in the accumulator, read back over junk. -/
abbrev accOf (L : List (View.Piece (Elt F) S1024x1 .f32)) : Vec F S1024x1 .f32 := VS1_0.read (Elt F) (VS1_0.writes (Elt F) VS1_0.junk L)
/-- What a list of pieces leaves in the output's buffer, read back over junk. -/
abbrev outOf (L : List (View.Piece (Elt F) S1024x1 .f32)) : Vec F S1024x1 .f32 := VO1_5.read (Elt F) (VO1_5.writes (Elt F) VO1_5.junk L)

/-- Each case's stores into the accumulator tile it; so do the last case's into the output's buffer. -/
theorem scoverA (c : Dev nD) (t : Fin cfg1.N) (hc0 : cond1_0 (grid1.coords t)) (hc1 : ¬cond1_1 (grid1.coords t)) (y : S1024x1.Idx) :
    ∃ pc ∈ (ptA V c t hc0 hc1).2.1, y ∈ pc.1.set :=
  View.cover_of_tiledL (ptA V c t hc0 hc1).2.1 S1024x1.size (by sl_kernel_rfl) y
theorem scoverB (c : Dev nD) (t : Fin cfg1.N) (hc0 : ¬cond1_0 (grid1.coords t)) (hc1 : ¬cond1_1 (grid1.coords t)) (xs0 : Vec F S1024x1 .f32) (y : S1024x1.Idx) :
    ∃ pc ∈ (ptB V c t hc0 hc1 xs0).2.1, y ∈ pc.1.set :=
  View.cover_of_tiledL (ptB V c t hc0 hc1 xs0).2.1 S1024x1.size (by sl_kernel_rfl) y
theorem scoverC (c : Dev nD) (t : Fin cfg1.N) (hc0 : ¬cond1_0 (grid1.coords t)) (hc1 : cond1_1 (grid1.coords t)) (xs0 : Vec F S1024x1 .f32) (y : S1024x1.Idx) :
    ∃ pc ∈ (ptC V c t hc0 hc1 xs0).2.1, y ∈ pc.1.set :=
  View.cover_of_tiledL (ptC V c t hc0 hc1 xs0).2.1 S1024x1.size (by sl_kernel_rfl) y
theorem coverC (c : Dev nD) (t : Fin cfg1.N) (hc0 : ¬cond1_0 (grid1.coords t)) (hc1 : cond1_1 (grid1.coords t)) (xs0 : Vec F S1024x1 .f32) (y : S1024x1.Idx) :
    ∃ pc ∈ (ptC V c t hc0 hc1 xs0).1, y ∈ pc.1.set :=
  View.cover_of_tiledL (ptC V c t hc0 hc1 xs0).1 S1024x1.size (by sl_kernel_rfl) y

/-! ## What the output's buffer and the accumulator hold after each point -/

/-- THE ACCUMULATION: after the body at position `n`, the output's buffer (a placeholder where the window is idle) and
    the accumulator: the case the point is in, run on the point's blocks, the accumulator entering at what position `n - 1` left. -/
def outsAt1 (c : Dev nD) : (n : ℕ) → n < cfg1.N → Vec F S1024x1 .f32 × Vec F S1024x1 .f32
  | 0, hn =>
    let r := ptA V c ⟨0, hn⟩ ((hcond1_0 ⟨0, hn⟩).mpr (Nat.zero_mod _)) (fun h => (fun h => by (try dsimp only at h); omega) ((hcond1_1 ⟨0, hn⟩).mp h))
    (outOf r.1, accOf r.2.1)
  | n + 1, hn =>
    if h0 : (n + 1) % 4 = 0 then
      if h1 : (n + 1) % 4 = 3 then
        False.elim (by omega)
      else
        let r := ptA V c ⟨n + 1, hn⟩ ((hcond1_0 ⟨n + 1, hn⟩).mpr h0) (fun h => h1 ((hcond1_1 ⟨n + 1, hn⟩).mp h))
        (outOf r.1, accOf r.2.1)
    else
      if h1 : (n + 1) % 4 = 3 then
        let r := ptC V c ⟨n + 1, hn⟩ (fun h => h0 ((hcond1_0 ⟨n + 1, hn⟩).mp h)) ((hcond1_1 ⟨n + 1, hn⟩).mpr h1) (outsAt1 c n (Nat.lt_of_succ_lt hn)).2
        (outOf r.1, accOf r.2.1)
      else
        let r := ptB V c ⟨n + 1, hn⟩ (fun h => h0 ((hcond1_0 ⟨n + 1, hn⟩).mp h)) (fun h => h1 ((hcond1_1 ⟨n + 1, hn⟩).mp h)) (outsAt1 c n (Nat.lt_of_succ_lt hn)).2
        (outOf r.1, accOf r.2.1)

/-- At a point of the first column block. -/
theorem outsAt1_A (c : Dev nD) (t : Fin cfg1.N) (h0 : t.val % 4 = 0) (h1 : ¬t.val % 4 = 3) :
    outsAt1 V c t.val t.isLt
      = (outOf (ptA V c t ((hcond1_0 t).mpr h0) (fun h => h1 ((hcond1_1 t).mp h))).1, accOf (ptA V c t ((hcond1_0 t).mpr h0) (fun h => h1 ((hcond1_1 t).mp h))).2.1) := by
  obtain ⟨n, hn⟩ := t
  cases n with
  | zero => exact rfl
  | succ n => exact (dif_pos h0).trans ((dif_neg h1).trans rfl)

/-- At a point of a middle column block: over what the point before left. -/
theorem outsAt1_B (c : Dev nD) (t : Fin cfg1.N) (h0 : ¬t.val % 4 = 0) (h1 : ¬t.val % 4 = 3) :
    outsAt1 V c t.val t.isLt
      = (outOf (ptB V c t (fun h => h0 ((hcond1_0 t).mp h)) (fun h => h1 ((hcond1_1 t).mp h)) (outsAt1 V c (t.val - 1) (Nat.lt_of_le_of_lt (Nat.sub_le _ _) t.isLt)).2).1,
         accOf (ptB V c t (fun h => h0 ((hcond1_0 t).mp h)) (fun h => h1 ((hcond1_1 t).mp h)) (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_neg h1).trans rfl)

/-- At a point of the last column block: over what the point before left. -/
theorem outsAt1_C (c : Dev nD) (t : Fin cfg1.N) (h0 : ¬t.val % 4 = 0) (h1 : t.val % 4 = 3) :
    outsAt1 V c t.val t.isLt
      = (outOf (ptC V c t (fun h => h0 ((hcond1_0 t).mp h)) ((hcond1_1 t).mpr h1) (outsAt1 V c (t.val - 1) (Nat.lt_of_le_of_lt (Nat.sub_le _ _) t.isLt)).2).1,
         accOf (ptC V c t (fun h => h0 ((hcond1_0 t).mp h)) ((hcond1_1 t).mpr h1) (outsAt1 V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (every scoped buffer that is no staging buffer at
    anything); afterwards the accumulator at what the point before left, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The region's proof data on core `c`: the arrays as the region finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t) := by
  refine ⟨?_, ?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]
  · unfold Dat.leavesExact; rw [liveAt1_4 t, after1_4]

set_option maxHeartbeats 4800000 in
/-- The body at any point: the inputs' memrefs hold their blocks; the closed forms say which case the point is in; the
    invariant hands the body the accumulator (at what the point before left; at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  obtain ⟨hl0, hl1, hl2, hl3, hl4⟩ := leaves_in V c t
  rw [hl0, hl1, hl2, hl3, hl4]
  have hN : t.val < 16 := lt_of_lt_of_eq t.isLt (show cfg1.N = 16 from N_1)
  by_cases h0 : t.val % 4 = 0
  · have h1 : ¬ t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverA V c t _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverA V c t _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptC V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverC V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((ptB V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scoverB V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Cert.KernelIdeal.Hand

end
-- ==== Proof.FrameKernelIdeal.Run.lean ====
/-
  The whole program as a run: the buffers' contents at every boundary of @main (launch; after the first kernel region; after the
  two transposes; after the second kernel region; after the final sum and subtraction), the two regions as segment records
  around the thread state "every unscoped buffer at the boundary's contents, the generator register at some state, nothing
  owed", @main as the list of its four segments, and the run: every weakly fair execution terminates and every final memory
  holds each unscoped buffer at the last boundary's contents. The frame claim and the value of the result are read off it.
-/
import proofs.«124219_j11227044511928_2_alg».proof.Proof.FrameKernelIdeal.Reg0
import proofs.«124219_j11227044511928_2_alg».proof.Proof.FrameKernelIdeal.Reg1
import proofs.«124219_j11227044511928_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the first region's entry). -/
abbrev W0 : Dev nD → Valuation τ sig (Elt F) := fun c b => (s₀ m ρ).mem ((c : Dev nD), b)
abbrev VW0 : (c : Dev nD) → (b : Ref sig .tc) → Buf (Elt F) ((c : Thread nD τ).loc b) := fun c b => W0 m ρ c b
/-- After the first region: its arrays at what its write-backs leave, every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VW1 : (c : Dev nD) → (b : Ref sig .tc) → Buf (Elt F) ((c : Thread nD τ).loc b) := fun c b => W1 m ρ c b
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the two transposes (the second region's entry). -/
abbrev W2 : Dev nD → Valuation τ sig (Elt F) := fun c => StableHlo.after hostOps1 (W1 m ρ c)
abbrev VW2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (VW2 m ρ) c).arrAt w cfg1.N
theorem W3_arr (c : Dev nD) (w : Fin cfg1.W) :
    W3 m ρ c (Proc.devRef .tc (Pipeline.arrRef spec1 w)) = (dat1 (VW2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VW3 : (c : Dev nD) → (b : Ref sig .tc) → Buf (Elt F) ((c : Thread nD τ).loc b) := fun c b => W3 m ρ c b
theorem hF1 (c : Dev nD) (w : Fin cfg1.W) : (dat1 (VW2 m ρ) c).arrAt w cfg1.N = VW3 m ρ c (Pipeline.arrRef spec1 w) :=
  (W3_arr m ρ c w).symm
theorem hrest1 (c : Dev nD) : ∀ b, b ∉ Finset.univ.image (Pipeline.arrRef spec1) → VW3 m ρ c b = VW2 m ρ c b :=
  fun b hb => W3_of_ne m ρ c b fun w e => hb (Finset.mem_image.mpr ⟨w, Finset.mem_univ _, e⟩)
/-- After the final sum and subtraction: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := W3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((dat0 (VW0 m ρ) c).arrAt_in 0 rfl _).trans (A_eq0 (VW0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := W3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := (W1_arr m ρ c 1).trans (((dat0 (VW0 m ρ) c).arrAt_in 1 rfl _).trans (A_eq0 (VW0 m ρ) c 1))
    _ = m ((c : Thread nD τ).loc main_arg1) := rfl

/-! ## The proof data family and the thread state -/

abbrev admH : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) admH p) c
  | ⟨0, _⟩ => fun c => dat0 (VW0 m ρ) c
  | ⟨1, _⟩ => fun c => dat1 (VW2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at the launch contents, left at `W1`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the accumulator lives inside the
    region's invariant, taken from the class's at the first point and given back after the last. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VW2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (admH 1).1
          ∗ Pipeline.scopedRest (Pipeline.pin (pcfgs (F := F)) admH 1).spec c) : sProp 𝕄) ⊢ Pipeline.ΦA spec1 c := by
      unfold Pipeline.ΦA
      iintro ⟨Hp, -, Hr⟩
      isplitl [Hr]; · iexact Hr
      iexact Hp
    exact h1.trans (hin1 (VW2 m ρ) c)
  hout c := by
    rw [Pipeline.ownSems0_none]
    have h1 : (Pipeline.ΦA spec1 c : sProp 𝕄) ⊢ iprop((∃ r, prngReg c r) ∗ BI.emp
          ∗ Pipeline.scopedRest (Pipeline.pin (pcfgs (F := F)) admH 1).spec c) := by
      unfold Pipeline.ΦA
      iintro ⟨Hr, Hp⟩
      isplitl [Hp]; · iexact Hp
      isplitr; · iempintro
      iexact Hr
    exact (hout1 (VW2 m ρ) c).trans h1
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VW2 m ρ c) (VW3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, and every
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (StableHlo.after hostOps2 (W3 m ρ c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run m ρ)

end Cert.KernelIdeal.Hand

end
-- ==== Proof.Spec.lean ====
/-
  The triplet hinge loss of two batches of 4096 vectors in dimension 512, written once over the extended reals, in the two
  arrangements this certificate joins.

  For sketches `s j` and photos `p i`: the aligned distance `pos j = ‖s j − p j‖`, the cross distance
  `neg i j = √(max(‖p i‖² + ‖s j‖² − 2 ⟨p i, s j⟩, 0))` — the squared distance by the polarization identity, clamped at zero —
  and the margin `c` (the binary32 value nearest 3/10).

  * `masked`  : the sum over all pairs of `max(((pos j − neg i j) + c) · (1 − [i = j]), 0)`: the diagonal is zeroed before the hinge.
  * `shifted` : the sum over all pairs, the diagonal included, of `max((pos j + c) − neg i j, 0)`, less the constant `K`
                (the binary32 value nearest 1228.8, which is exactly `4096 · c`).

  On finite inputs the two agree: off the diagonal the summands differ by a regrouping of a real sum; on the diagonal
  `neg i i = pos i` exactly (polarization), so each diagonal summand of `shifted` is `max(c, 0) = c`, and the 4096 of them are `K`.
-/
import Idealize.ShloMosaic.PureOps.Ideal

noncomputable section

open scoped BigOperators

namespace Cert.Hinge

open Idealize.ShloMosaic

/-- The margin: the extended real the binary32 pattern of `0.3` denotes. -/
def margin : EReal := Ideal.ofBits .f32 0x3E99999A#32
/-- The constant taken off the unmasked total: the extended real the binary32 pattern of `1228.8` denotes. -/
def offset : EReal := Ideal.ofBits .f32 0x4499999A#32
/-- The factor of the inner product in the polarization identity: the extended real the binary32 pattern of `2.0` denotes. -/
def two : EReal := Ideal.ofBits .f32 0x40000000#32

variable (s p : Fin 4096 → Fin 512 → EReal)

/-- The squared norm of row `i` of `x`. -/
def sqn (x : Fin 4096 → Fin 512 → EReal) (i : Fin 4096) : EReal := ∑ k : Fin 512, x i k * x i k
/-- The aligned distance: sketch `j` against photo `j`. -/
def pos (j : Fin 4096) : EReal := Ideal.sqrt (∑ k : Fin 512, (s j k - p j k) * (s j k - p j k))
/-- The inner product of photo `i` with sketch `j`. -/
def cross (i j : Fin 4096) : EReal := ∑ k : Fin 512, p i k * s j k
/-- The cross distance: photo `i` against sketch `j`, through the polarization identity, clamped at zero. -/
def neg (i j : Fin 4096) : EReal := Ideal.sqrt (max ((sqn p i + sqn s j) - two * cross s p i j) 0)

/-- The hinge with the diagonal zeroed before it, summed over all pairs. -/
def masked : EReal :=
  ∑ i : Fin 4096, ∑ j : Fin 4096, max (((pos s p j - neg s p i j) + margin) * ((1 : EReal) - (if i = j then (1 : EReal) else 0))) 0
/-- The hinge over all pairs with the margin folded into the aligned distance, less the diagonal's constant. -/
def shifted : EReal :=
  (∑ i : Fin 4096, ∑ j : Fin 4096, max ((pos s p j + margin) - neg s p i j) 0) - offset

end Cert.Hinge

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Value0.lean ====
/-
  What the five output arrays of the preparation call hold when the region ends, as whole-array functions of the two
  argument arrays as the region finds them: the squared norms of the rows of each argument, the aligned distance of the
  rows shifted by the margin, and the two arguments again (a change of number format is the identity on extended reals).
-/
import proofs.«124219_j11227044511928_2_alg».proof.Proof.FrameKernelIdeal.Reg0
import proofs.«124219_j11227044511928_2_alg».proof.Proof.Spec
import proofs.«124219_j11227044511928_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hinge.K0

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The body's payloads at an index -/

/-- The row sums of squares, as a column: at row `r` the sum over the row of the squares. -/
theorem pay1_apply (x0 : Vec Ideal S1024x512 .f32) (r : Fin 1024) (u : Fin 1) :
    k0_pay1 x0 (ix2 r u) = ∑ k : Fin 512, x0 (ix2 r k) * x0 (ix2 r k) := by
  unfold k0_pay1
  refine (Cert.Attn.Layout.shapeCast_a_a1_apply _ shapeCasts_S1024_S1024x1 r u).trans ?_
  refine (Cert.Attn.Layout.rowSum_apply _ reduces_S1024x512_S1024 (.inl rfl) rfl r).trans ?_
  rfl

/-- The same payload of the second block. -/
theorem pay2_apply (x1 : Vec Ideal S1024x512 .f32) (r : Fin 1024) (u : Fin 1) :
    k0_pay2 x1 (ix2 r u) = ∑ k : Fin 512, x1 (ix2 r k) * x1 (ix2 r k) := by
  unfold k0_pay2
  refine (Cert.Attn.Layout.shapeCast_a_a1_apply _ shapeCasts_S1024_S1024x1 r u).trans ?_
  refine (Cert.Attn.Layout.rowSum_apply _ reduces_S1024x512_S1024 (.inl rfl) rfl r).trans ?_
  rfl

/-- The shifted distance, as a column: at row `r` the root of the sum over the row of the squared differences, plus the margin. -/
theorem pay3_apply (x0 x1 : Vec Ideal S1024x512 .f32) (r : Fin 1024) (u : Fin 1) :
    k0_pay3 x0 x1 (ix2 r u)
      = Ideal.sqrt (∑ k : Fin 512, (x0 (ix2 r k) - x1 (ix2 r k)) * (x0 (ix2 r k) - x1 (ix2 r k))) + Ideal.ofBits .f32 0x3E99999A#32 := by
  unfold k0_pay3
  refine congrArg (fun z : EReal => Ideal.sqrt z + Ideal.ofBits .f32 0x3E99999A#32) ?_
  refine (Cert.Attn.Layout.shapeCast_a_a1_apply _ shapeCasts_S1024_S1024x1 r u).trans ?_
  refine (Cert.Attn.Layout.rowSum_apply _ reduces_S1024x512_S1024 (.inl rfl) rfl r).trans ?_
  rfl

/-- The narrower copy of the first block is the block. -/
theorem pay4_apply (x0 : Vec Ideal S1024x512 .f32) (j : S1024x512.Idx) : k0_pay4 x0 j = x0 j := rfl
/-- The narrower copy of the second block is the block. -/
theorem pay5_apply (x1 : Vec Ideal S1024x512 .f32) (j : S1024x512.Idx) : k0_pay5 x1 j = x1 j := rfl

/-! ## From blocks to the arrays -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- Every window's block index at point `t`, decided over the grid: the point's number along the rows, zero along the columns. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem blockIndex0 (t : Fin cfg0.N) : win0_0.index t (0 : Fin 2) = t.val ∧ win0_0.index t (1 : Fin 2) = 0 := (idx_facts t).1
theorem blockIndex1 (t : Fin cfg0.N) : win0_1.index t (0 : Fin 2) = t.val ∧ win0_1.index t (1 : Fin 2) = 0 := (idx_facts t).2.1
theorem blockIndex2 (t : Fin cfg0.N) : win0_2.index t (0 : Fin 2) = t.val ∧ win0_2.index t (1 : Fin 2) = 0 := (idx_facts t).2.2.1
theorem blockIndex3 (t : Fin cfg0.N) : win0_3.index t (0 : Fin 2) = t.val ∧ win0_3.index t (1 : Fin 2) = 0 := (idx_facts t).2.2.2.1
theorem blockIndex4 (t : Fin cfg0.N) : win0_4.index t (0 : Fin 2) = t.val ∧ win0_4.index t (1 : Fin 2) = 0 := (idx_facts t).2.2.2.2.1
theorem blockIndex5 (t : Fin cfg0.N) : win0_5.index t (0 : Fin 2) = t.val ∧ win0_5.index t (1 : Fin 2) = 0 := (idx_facts t).2.2.2.2.2.1
theorem blockIndex6 (t : Fin cfg0.N) : win0_6.index t (0 : Fin 2) = t.val ∧ win0_6.index t (1 : Fin 2) = 0 := (idx_facts t).2.2.2.2.2.2

/-- The first input window's block at point `t` is rows `1024 t … 1024 t + 1023` of the first argument. -/
theorem iblk0_0_apply (c : Dev nD) (t : Fin cfg0.N) (r : Fin 1024) (k : Fin 512) (R : Fin 4096) (hR : R.val = t.val * 1024 + r.val) :
    (iblk0 V c 0 t : Vec Ideal S1024x512 .f32) (ix2 r k) = V c main_arg0 (ix2 R k) := by
  unfold iblk0
  rw [View.read_apply]
  show V c main_arg0 _ = V c main_arg0 _
  congr 1
  funext a
  apply Fin.ext
  match a with
  | ⟨0, _⟩ => show win0_0.index t (0 : Fin 2) * 1024 + 1 * r.val = R.val; rw [(blockIndex0 t).1, hR]; omega
  | ⟨1, _⟩ => show win0_0.index t (1 : Fin 2) * 512 + 1 * k.val = k.val; rw [(blockIndex0 t).2]; omega

/-- The second input window's block at point `t` is the same rows of the second argument. -/
theorem iblk0_1_apply (c : Dev nD) (t : Fin cfg0.N) (r : Fin 1024) (k : Fin 512) (R : Fin 4096) (hR : R.val = t.val * 1024 + r.val) :
    (iblk0 V c 1 t : Vec Ideal S1024x512 .f32) (ix2 r k) = V c main_arg1 (ix2 R k) := by
  unfold iblk0
  rw [View.read_apply]
  show V c main_arg1 _ = V c main_arg1 _
  congr 1
  funext a
  apply Fin.ext
  match a with
  | ⟨0, _⟩ => show win0_1.index t (0 : Fin 2) * 1024 + 1 * r.val = R.val; rw [(blockIndex1 t).1, hR]; omega
  | ⟨1, _⟩ => show win0_1.index t (1 : Fin 2) * 512 + 1 * k.val = k.val; rw [(blockIndex1 t).2]; omega

/-! ## The whole-array functions -/

/-- The column of squared row norms of an array. -/
def sqnCol (a : S4096x512.Idx → EReal) : S4096x1.Idx → EReal :=
  fun I => Cert.Hinge.sqn (fun i k => a (ix2 i k)) ⟨(I 0).val, idx2_lt0 I⟩
/-- The column of aligned row distances of two arrays, each shifted by the margin. -/
def posCol (a b : S4096x512.Idx → EReal) : S4096x1.Idx → EReal :=
  fun I => Cert.Hinge.pos (fun i k => a (ix2 i k)) (fun i k => b (ix2 i k)) ⟨(I 0).val, idx2_lt0 I⟩ + Cert.Hinge.margin

/-! ## Output window 2 -/

/-- Row `r` of point `t`'s block of window 2 is the squared norm of row `1024 t + r` of the first argument. -/
theorem row2_at (c : Dev nD) (t : Fin cfg0.N) (j : S1024x1.Idx) (I : S4096x1.Idx) (hI : (I 0).val = t.val * 1024 + (j 0).val) :
    k0_pay1 (iblk0 V c 0 t) j = sqnCol (V c main_arg0) I := by
  obtain ⟨r, u, rfl⟩ : ∃ (r : Fin 1024) (u : Fin 1), j = ix2 r u := ⟨j 0, j 1, eq_ix2 j⟩
  refine (pay1_apply (iblk0 V c 0 t) r u).trans ?_
  unfold sqnCol Cert.Hinge.sqn
  refine Finset.sum_congr rfl fun k _ => ?_
  have e := iblk0_0_apply V c t r k ⟨(I 0).val, idx2_lt0 I⟩ hI
  exact congrArg₂ (· * ·) e e

/-- What point `t` writes back to window 2's array is block `t` of that whole-array function. -/
theorem flushed2_eq (c : Dev nD) (t : Fin cfg0.N) :
    (dat0 V c).flushed 2 t = ((cfg0.win 2).blk t).view.read (Elt Ideal) (sqnCol (V c main_arg0)) := by
  show (cfg0.win 2).cut (grid0.coords t) ((dat0 V c).after 2 t) = _
  rw [after0_2]
  unfold out0_2
  rw [View.canon_unit_zero zero_offsets]
  simp only [View.ld_unit_zero (S := S1024x512) zero_offsets]
  funext j
  show k0_pay1 (iblk0 V c 0 t) j = sqnCol (V c main_arg0) (((cfg0.win 2).blk t).view.emb j)
  refine row2_at V c t j _ ?_
  show win0_2.index t (0 : Fin 2) * 1024 + 1 * (j 0).val = t.val * 1024 + (j 0).val
  rw [(blockIndex2 t).1]; omega

/-- An index of window 2's array is in point `t`'s block iff each coordinate is in the block's range on its axis. -/
theorem mem_blk2 (t : Fin cfg0.N) (i : S4096x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl

/-- Row `r` of window 2's array is in the block of point `r / 1024`. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hlt : (i 0).val / 1024 < cfg0.N := by rw [show cfg0.N = 4 from N_0]; omega
  refine ⟨⟨(i 0).val / 1024, hlt⟩, flush0_2 _, ?_⟩
  rw [mem_blk2]
  obtain ⟨e0, e1⟩ := blockIndex2 ⟨(i 0).val / 1024, hlt⟩
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_2.index ⟨(i 0).val / 1024, hlt⟩ (1 : Fin 2) * 1 ≤ (i 1).val ∧ (i 1).val < win0_2.index ⟨(i 0).val / 1024, hlt⟩ (1 : Fin 2) * 1 + 1
    rw [e1]; omega

/-- Window 2's array after the region. -/
theorem final2 (c : Dev nD) : (dat0 V c).arrAt 2 cfg0.N = sqnCol (V c main_arg0) :=
  (dat0 V c).arrAt_eq_of_cover 2 (sqnCol (V c main_arg0)) (fun t _ => flushed2_eq V c t) cover2

/-! ## Output window 3 -/

/-- Row `r` of point `t`'s block of window 3 is the squared norm of row `1024 t + r` of the second argument. -/
theorem row3_at (c : Dev nD) (t : Fin cfg0.N) (j : S1024x1.Idx) (I : S4096x1.Idx) (hI : (I 0).val = t.val * 1024 + (j 0).val) :
    k0_pay2 (iblk0 V c 1 t) j = sqnCol (V c main_arg1) I := by
  obtain ⟨r, u, rfl⟩ : ∃ (r : Fin 1024) (u : Fin 1), j = ix2 r u := ⟨j 0, j 1, eq_ix2 j⟩
  refine (pay2_apply (iblk0 V c 1 t) r u).trans ?_
  unfold sqnCol Cert.Hinge.sqn
  refine Finset.sum_congr rfl fun k _ => ?_
  have e := iblk0_1_apply V c t r k ⟨(I 0).val, idx2_lt0 I⟩ hI
  exact congrArg₂ (· * ·) e e

/-- What point `t` writes back to window 3's array is block `t` of that whole-array function. -/
theorem flushed3_eq (c : Dev nD) (t : Fin cfg0.N) :
    (dat0 V c).flushed 3 t = ((cfg0.win 3).blk t).view.read (Elt Ideal) (sqnCol (V c main_arg1)) := by
  show (cfg0.win 3).cut (grid0.coords t) ((dat0 V c).after 3 t) = _
  rw [after0_3]
  unfold out0_3
  rw [View.canon_unit_zero zero_offsets]
  simp only [View.ld_unit_zero (S := S1024x512) zero_offsets]
  funext j
  show k0_pay2 (iblk0 V c 1 t) j = sqnCol (V c main_arg1) (((cfg0.win 3).blk t).view.emb j)
  refine row3_at V c t j _ ?_
  show win0_3.index t (0 : Fin 2) * 1024 + 1 * (j 0).val = t.val * 1024 + (j 0).val
  rw [(blockIndex3 t).1]; omega

/-- An index of window 3's array is in point `t`'s block iff each coordinate is in the block's range on its axis. -/
theorem mem_blk3 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

/-- Row `r` of window 3's array is in the block of point `r / 1024`. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hlt : (i 0).val / 1024 < cfg0.N := by rw [show cfg0.N = 4 from N_0]; omega
  refine ⟨⟨(i 0).val / 1024, hlt⟩, flush0_3 _, ?_⟩
  rw [mem_blk3]
  obtain ⟨e0, e1⟩ := blockIndex3 ⟨(i 0).val / 1024, hlt⟩
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, hlt⟩ (1 : Fin 2) * 1 ≤ (i 1).val ∧ (i 1).val < win0_3.index ⟨(i 0).val / 1024, hlt⟩ (1 : Fin 2) * 1 + 1
    rw [e1]; omega

/-- Window 3's array after the region. -/
theorem final3 (c : Dev nD) : (dat0 V c).arrAt 3 cfg0.N = sqnCol (V c main_arg1) :=
  (dat0 V c).arrAt_eq_of_cover 3 (sqnCol (V c main_arg1)) (fun t _ => flushed3_eq V c t) cover3

/-! ## Output window 4 -/

/-- Row `r` of point `t`'s block of window 4 is the shifted aligned distance of row `1024 t + r`. -/
theorem row4_at (c : Dev nD) (t : Fin cfg0.N) (j : S1024x1.Idx) (I : S4096x1.Idx) (hI : (I 0).val = t.val * 1024 + (j 0).val) :
    k0_pay3 (iblk0 V c 0 t) (iblk0 V c 1 t) j = posCol (V c main_arg0) (V c main_arg1) I := by
  obtain ⟨r, u, rfl⟩ : ∃ (r : Fin 1024) (u : Fin 1), j = ix2 r u := ⟨j 0, j 1, eq_ix2 j⟩
  refine (pay3_apply (iblk0 V c 0 t) (iblk0 V c 1 t) r u).trans ?_
  unfold posCol Cert.Hinge.pos Cert.Hinge.margin
  refine congrArg (fun z : EReal => Ideal.sqrt z + Ideal.ofBits .f32 0x3E99999A#32) ?_
  refine Finset.sum_congr rfl fun k _ => ?_
  have e0 := iblk0_0_apply V c t r k ⟨(I 0).val, idx2_lt0 I⟩ hI
  have e1 := iblk0_1_apply V c t r k ⟨(I 0).val, idx2_lt0 I⟩ hI
  exact congrArg₂ (· * ·) (congrArg₂ (· - ·) e0 e1) (congrArg₂ (· - ·) e0 e1)

/-- What point `t` writes back to window 4's array is block `t` of that whole-array function. -/
theorem flushed4_eq (c : Dev nD) (t : Fin cfg0.N) :
    (dat0 V c).flushed 4 t = ((cfg0.win 4).blk t).view.read (Elt Ideal) (posCol (V c main_arg0) (V c main_arg1)) := by
  show (cfg0.win 4).cut (grid0.coords t) ((dat0 V c).after 4 t) = _
  rw [after0_4]
  unfold out0_4
  rw [View.canon_unit_zero zero_offsets]
  simp only [View.ld_unit_zero (S := S1024x512) zero_offsets]
  funext j
  show k0_pay3 (iblk0 V c 0 t) (iblk0 V c 1 t) j = posCol (V c main_arg0) (V c main_arg1) (((cfg0.win 4).blk t).view.emb j)
  refine row4_at V c t j _ ?_
  show win0_4.index t (0 : Fin 2) * 1024 + 1 * (j 0).val = t.val * 1024 + (j 0).val
  rw [(blockIndex4 t).1]; omega

/-- An index of window 4's array is in point `t`'s block iff each coordinate is in the block's range on its axis. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_2).slice (win0_4.rect t)).set ↔ _
  rw [View.set_slice_whole, Rect.mem_set_unit]
  exact Iff.rfl

/-- Row `r` of window 4's array is in the block of point `r / 1024`. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hlt : (i 0).val / 1024 < cfg0.N := by rw [show cfg0.N = 4 from N_0]; omega
  refine ⟨⟨(i 0).val / 1024, hlt⟩, flush0_4 _, ?_⟩
  rw [mem_blk4]
  obtain ⟨e0, e1⟩ := blockIndex4 ⟨(i 0).val / 1024, hlt⟩
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, hlt⟩ (1 : Fin 2) * 1 ≤ (i 1).val ∧ (i 1).val < win0_4.index ⟨(i 0).val / 1024, hlt⟩ (1 : Fin 2) * 1 + 1
    rw [e1]; omega

/-- Window 4's array after the region. -/
theorem final4 (c : Dev nD) : (dat0 V c).arrAt 4 cfg0.N = posCol (V c main_arg0) (V c main_arg1) :=
  (dat0 V c).arrAt_eq_of_cover 4 (posCol (V c main_arg0) (V c main_arg1)) (fun t _ => flushed4_eq V c t) cover4

/-! ## Output window 5 -/

/-- What point `t` writes back to window 5's array is block `t` of the argument. -/
theorem flushed5_eq (c : Dev nD) (t : Fin cfg0.N) :
    (dat0 V c).flushed 5 t = ((cfg0.win 5).blk t).view.read (Elt Ideal) (V c main_arg0 : S4096x512.Idx → EReal) := by
  show (cfg0.win 5).cut (grid0.coords t) ((dat0 V c).after 5 t) = _
  rw [after0_5]
  unfold out0_5
  rw [View.canon_unit_zero zero_offsets]
  simp only [View.ld_unit_zero (S := S1024x512) zero_offsets]
  funext j
  show V c main_arg0 (((cfg0.win 0).blk t).view.emb j) = V c main_arg0 (((cfg0.win 5).blk t).view.emb j)
  have h0 : ((cfg0.win 0).blk t).view.emb j = ((cfg0.win 5).blk t).view.emb j := by
    funext a; apply Fin.ext
    match a with
    | ⟨0, _⟩ => show win0_0.index t (0 : Fin 2) * 1024 + 1 * (j 0).val = win0_5.index t (0 : Fin 2) * 1024 + 1 * (j 0).val; rw [(blockIndex0 t).1, (blockIndex5 t).1]
    | ⟨1, _⟩ => show win0_0.index t (1 : Fin 2) * 512 + 1 * (j 1).val = win0_5.index t (1 : Fin 2) * 512 + 1 * (j 1).val; rw [(blockIndex0 t).2, (blockIndex5 t).2]
  rw [h0]

/-- An index of window 5's array is in point `t`'s block iff each coordinate is in the block's range on its axis. -/
theorem mem_blk5 (t : Fin cfg0.N) (i : S4096x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v0_3).slice (win0_5.rect t)).set ↔ _
  rw [View.set_slice_whole, Rect.mem_set_unit]
  exact Iff.rfl

/-- Row `r` of window 5's array is in the block of point `r / 1024`. -/
theorem cover5 (i : S4096x512.Idx) : ∃ t : Fin cfg0.N, (cfg0.win 5).flush t = true ∧ i ∈ ((cfg0.win 5).blk t).view.set := by
  have hi0 : (i 0).val < 4096 := (i 0).isLt
  have hi1 : (i 1).val < 512 := (i 1).isLt
  have hlt : (i 0).val / 1024 < cfg0.N := by rw [show cfg0.N = 4 from N_0]; omega
  refine ⟨⟨(i 0).val / 1024, hlt⟩, flush0_5 _, ?_⟩
  rw [mem_blk5]
  obtain ⟨e0, e1⟩ := blockIndex5 ⟨(i 0).val / 1024, hlt⟩
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hlt⟩ (1 : Fin 2) * 512 ≤ (i 1).val ∧ (i 1).val < win0_5.index ⟨(i 0).val / 1024, hlt⟩ (1 : Fin 2) * 512 + 512
    rw [e1]; omega

/-- Window 5's array after the region. -/
theorem final5 (c : Dev nD) : (dat0 V c).arrAt 5 cfg0.N = (V c main_arg0 : S4096x512.Idx → EReal) :=
  (dat0 V c).arrAt_eq_of_cover 5 (V c main_arg0 : S4096x512.Idx → EReal) (fun t _ => flushed5_eq V c t) cover5

/-! ## Output window 6 -/

/-- What point `t` writes back to window 6's array is block `t` of the argument. -/
theorem flushed6_eq (c : Dev nD) (t : Fin cfg0.N) :
    (dat0 V c).flushed 6 t = ((cfg0.win 6).blk t).view.read (Elt Ideal) (V c main_arg1 : S4096x512.Idx → EReal) := by
  show (cfg0.win 6).cut (grid0.coords t) ((dat0 V c).after 6 t) = _
  rw [after0_6]
  unfold out0_6
  rw [View.canon_unit_zero zero_offsets]
  simp only [View.ld_unit_zero (S := S1024x512) zero_offsets]
  funext j
  show V c main_arg1 (((cfg0.win 1).blk t).view.emb j) = V c main_arg1 (((cfg0.win 6).blk t).view.emb j)
  have h0 : ((cfg0.win 1).blk t).view.emb j = ((cfg0.win 6).blk t).view.emb j := by
    funext a; apply Fin.ext
    match a with
    | ⟨0, _⟩ => show win0_1.index t (0 : Fin 2) * 1024 + 1 * (j 0).val = win0_6.index t (0 : Fin 2) * 1024 + 1 * (j 0).val; rw [(blockIndex1 t).1, (blockIndex6 t).1]
    | ⟨1, _⟩ => show win0_1.index t (1 : Fin 2) * 512 + 1 * (j 1).val = win0_6.index t (1 : Fin 2) * 512 + 1 * (j 1).val; rw [(blockIndex1 t).2, (blockIndex6 t).2]
  rw [h0]

/-- An index of window 6's array is in point `t`'s block iff each coordinate is in the block's range on its axis. -/
theorem mem_blk6 (t : Fin cfg0.N) (i : S4096x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v0_4).slice (win0_6.rect t)).set ↔ _
  rw [View.set_slice_whole, Rect.mem_set_unit]
  exact Iff.rfl

/-- Row `r` of window 6's array is in the block of point `r / 1024`. -/
theorem cover6 (i : S4096x512.Idx) : ∃ t : Fin cfg0.N, (cfg0.win 6).flush t = true ∧ i ∈ ((cfg0.win 6).blk t).view.set := by
  have hi0 : (i 0).val < 4096 := (i 0).isLt
  have hi1 : (i 1).val < 512 := (i 1).isLt
  have hlt : (i 0).val / 1024 < cfg0.N := by rw [show cfg0.N = 4 from N_0]; omega
  refine ⟨⟨(i 0).val / 1024, hlt⟩, flush0_6 _, ?_⟩
  rw [mem_blk6]
  obtain ⟨e0, e1⟩ := blockIndex6 ⟨(i 0).val / 1024, hlt⟩
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, hlt⟩ (1 : Fin 2) * 512 ≤ (i 1).val ∧ (i 1).val < win0_6.index ⟨(i 0).val / 1024, hlt⟩ (1 : Fin 2) * 512 + 512
    rw [e1]; omega

/-- Window 6's array after the region. -/
theorem final6 (c : Dev nD) : (dat0 V c).arrAt 6 cfg0.N = (V c main_arg1 : S4096x512.Idx → EReal) :=
  (dat0 V c).arrAt_eq_of_cover 6 (V c main_arg1 : S4096x512.Idx → EReal) (fun t _ => flushed6_eq V c t) cover6

/-! ## The five arrays after the region, read at an index -/

/-- Window 2's array holds the squared norms of the rows of the first argument. -/
theorem arr2 (c : Dev nD) (i : Fin 4096) :
    (dat0 V c).arrAt 2 cfg0.N (ix2 i (0 : Fin 1)) = Cert.Hinge.sqn (fun i k => V c main_arg0 (ix2 i k)) i := by
  rw [final2]; rfl
/-- Window 3's array holds the squared norms of the rows of the second argument. -/
theorem arr3 (c : Dev nD) (i : Fin 4096) :
    (dat0 V c).arrAt 3 cfg0.N (ix2 i (0 : Fin 1)) = Cert.Hinge.sqn (fun i k => V c main_arg1 (ix2 i k)) i := by
  rw [final3]; rfl
/-- Window 4's array holds the aligned distances of the rows, each shifted by the margin. -/
theorem arr4 (c : Dev nD) (i : Fin 4096) :
    (dat0 V c).arrAt 4 cfg0.N (ix2 i (0 : Fin 1))
      = Cert.Hinge.pos (fun i k => V c main_arg0 (ix2 i k)) (fun i k => V c main_arg1 (ix2 i k)) i + Cert.Hinge.margin := by
  rw [final4]; rfl
/-- Window 5's array holds the first argument. -/
theorem arr5 (c : Dev nD) (i : Fin 4096) (k : Fin 512) :
    (dat0 V c).arrAt 5 cfg0.N (ix2 i k) = V c main_arg0 (ix2 i k) := by
  rw [final5]
/-- Window 6's array holds the second argument. -/
theorem arr6 (c : Dev nD) (i : Fin 4096) (k : Fin 512) :
    (dat0 V c).arrAt 6 cfg0.N (ix2 i k) = V c main_arg1 (ix2 i k) := by
  rw [final6]

end Cert.Hinge.K0

end
-- ==== Proof.Blocks.lean ====
/-
  The same total as `Cert.Hinge.shifted`, in the arrangement the blocked computation produces: the 4096 columns cut into four blocks
  of 1024, each row's hinge summed block by block onto a zero accumulator in block order, the rows' accumulators then summed onto
  zero, and the constant taken off. Only the grouping of a finite sum differs from `shifted`.
-/
import proofs.«124219_j11227044511928_2_alg».proof.Proof.Spec

noncomputable section

open scoped BigOperators

namespace Cert.Hinge

variable (s p : Fin 4096 → Fin 512 → EReal)

/-- The hinge at a pair, the margin folded into the aligned distance. -/
def hinge (i j : Fin 4096) : EReal := max ((pos s p j + margin) - neg s p i j) 0
/-- Entry `y` of block `b` of an axis of 4096 cut into four blocks of 1024. -/
def blk (b : Fin 4) (y : Fin 1024) : Fin 4096 := ⟨1024 * b.val + y.val, by omega⟩
/-- Row `i`'s hinge summed over column block `b`. -/
def blockSum (i : Fin 4096) (b : Fin 4) : EReal := ∑ y : Fin 1024, hinge s p i (blk b y)
/-- Row `i`'s accumulator after the four column blocks, added onto zero in block order. -/
def rowAcc (i : Fin 4096) : EReal := (((0 + blockSum s p i 0) + blockSum s p i 1) + blockSum s p i 2) + blockSum s p i 3
/-- The blocked total: the rows' accumulators summed onto zero, less the constant. -/
def blocked : EReal := ((0 : EReal) + ∑ i : Fin 4096, rowAcc s p i) - offset

end Cert.Hinge

end
-- ==== Proof.Value1.Pieces.lean ====
/-
  What the body of the pairwise-hinge region leaves behind at a grid point, read back as values. The body has three cases by
  the column block: at the first it clears its accumulator to the zero vector and then adds; at a middle one it adds; at the
  last it adds and copies the accumulator to the output's buffer. In every case the accumulator ends at one payload — the
  accumulator as it entered (the zero vector at the first column block) plus this block's row sums of the hinge, computed
  from the five input blocks — because each store covers its whole buffer and each load reads a whole buffer. At the last
  column block the output's buffer holds that same value.
-/
import proofs.«124219_j11227044511928_2_alg».proof.Proof.FrameKernelIdeal.Reg1
import Idealize.ShloMosaic.Lib.Pipeline.Value
import Idealize.ShloMosaic.Lib.Tactic

set_option maxRecDepth 16384

noncomputable section

namespace Cert.Hinge.K1

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Hand

variable {F : FTy → Type} [FloatOps F]

/-- The zero offsets of a rank-2 rectangle, however spelt. -/
theorem hz2 : (![0, 0] : Fin 2 → Nat) = fun _ => 0 := funext fun a => by fin_cases a <;> rfl

/-- A MIDDLE column block: the body's one covering store into the accumulator leaves the payload of the five input blocks
    and of the accumulator as it entered. -/
theorem acc_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i) (x0 : Vec F S1024x512 .bf16) (x1 : Vec F S1024x512 .bf16) (x2 : Vec F S1024x1 .f32) (x3 : Vec F S1x1024 .f32) (x4 : Vec F S1x1024 .f32) (xs0 : Vec F S1024x1 .f32) :
    accOf (kernelRun1_B (F := F) c i arg2 harg2 arg3 harg3 arg4 harg4 arg5 harg5 arg6 harg6 arg7 harg7 arg8 harg8 hc0 hc1 x0 x1 x2 x3 x4 xs0).2.1 = k1_pay2 x0 x1 x2 x3 x4 xs0 := by
  unfold accOf
  rw [View.read_writes_eq_canon _ _ _ (fun y => View.cover_of_tiledL (kernelRun1_B (F := F) c i arg2 harg2 arg3 harg3 arg4 harg4 arg5 harg5 arg6 harg6 arg7 harg7 arg8 harg8 hc0 hc1 x0 x1 x2 x3 x4 xs0).2.1 S1024x1.size (by sl_kernel_rfl) y)]
  unfold kernelRun1_B
  dsimp only
  rw [View.canon_unit_zero hz2]
  simp only [View.readAt_eq_ld, harg2.read_unread, harg3.read_unread, harg4.read_unread, harg5.read_unread, harg6.read_unread, harg7.read_unread, harg8.read_unread, View.ld_unit_zero (S := S1024x512) hz2, View.ld_unit_zero (S := S1024x1) hz2, View.ld_unit_zero (S := S1x1024) hz2]

/-- The FIRST column block: the accumulator is cleared to the zero vector, read back, and the same payload stored over it. -/
theorem acc_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i) (x0 : Vec F S1024x512 .bf16) (x1 : Vec F S1024x512 .bf16) (x2 : Vec F S1024x1 .f32) (x3 : Vec F S1x1024 .f32) (x4 : Vec F S1x1024 .f32) :
    accOf (kernelRun1_A (F := F) c i arg2 harg2 arg3 harg3 arg4 harg4 arg5 harg5 arg6 harg6 arg7 harg7 arg8 harg8 hc0 hc1 x0 x1 x2 x3 x4).2.1 = k1_pay2 x0 x1 x2 x3 x4 (k1_pay1 (F := F)) := by
  unfold accOf
  rw [View.read_writes_eq_canon _ _ _ (fun y => View.cover_of_tiledL (kernelRun1_A (F := F) c i arg2 harg2 arg3 harg3 arg4 harg4 arg5 harg5 arg6 harg6 arg7 harg7 arg8 harg8 hc0 hc1 x0 x1 x2 x3 x4).2.1 S1024x1.size (by sl_kernel_rfl) y)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg8.read_unread, View.ld_unit_zero (S := S1024x512) hz2, View.ld_unit_zero (S := S1024x1) hz2, View.ld_unit_zero (S := S1x1024) hz2]

/-- The LAST column block: the accumulator receives the same payload as at a middle block. -/
theorem acc_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i) (x0 : Vec F S1024x512 .bf16) (x1 : Vec F S1024x512 .bf16) (x2 : Vec F S1024x1 .f32) (x3 : Vec F S1x1024 .f32) (x4 : Vec F S1x1024 .f32) (xs0 : Vec F S1024x1 .f32) :
    accOf (kernelRun1_C (F := F) c i arg2 harg2 arg3 harg3 arg4 harg4 arg5 harg5 arg6 harg6 arg7 harg7 arg8 harg8 hc0 hc1 x0 x1 x2 x3 x4 xs0).2.1 = k1_pay2 x0 x1 x2 x3 x4 xs0 := by
  unfold accOf
  rw [View.read_writes_eq_canon _ _ _ (fun y => View.cover_of_tiledL (kernelRun1_C (F := F) c i arg2 harg2 arg3 harg3 arg4 harg4 arg5 harg5 arg6 harg6 arg7 harg7 arg8 harg8 hc0 hc1 x0 x1 x2 x3 x4 xs0).2.1 S1024x1.size (by sl_kernel_rfl) y)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x512) hz2, View.ld_unit_zero (S := S1024x1) hz2, View.ld_unit_zero (S := S1x1024) hz2]

/-- The LAST column block: the output's buffer receives the accumulator read back after that store, the same value. -/
theorem out_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i) (x0 : Vec F S1024x512 .bf16) (x1 : Vec F S1024x512 .bf16) (x2 : Vec F S1024x1 .f32) (x3 : Vec F S1x1024 .f32) (x4 : Vec F S1x1024 .f32) (xs0 : Vec F S1024x1 .f32) :
    outOf (kernelRun1_C (F := F) c i arg2 harg2 arg3 harg3 arg4 harg4 arg5 harg5 arg6 harg6 arg7 harg7 arg8 harg8 hc0 hc1 x0 x1 x2 x3 x4 xs0).1 = k1_pay2 x0 x1 x2 x3 x4 xs0 := by
  unfold outOf
  rw [View.read_writes_eq_canon _ _ _ (fun y => View.cover_of_tiledL (kernelRun1_C (F := F) c i arg2 harg2 arg3 harg3 arg4 harg4 arg5 harg5 arg6 harg6 arg7 harg7 arg8 harg8 hc0 hc1 x0 x1 x2 x3 x4 xs0).1 S1024x1.size (by sl_kernel_rfl) y)]
  unfold kernelRun1_C
  dsimp only
  sl_unfold_words
  rw [View.canon_unit_zero hz2, View.readCov_unit_zero (S := S1024x1) _ hz2]
  simp only [View.readAt_eq_ld, harg2.read_unread, harg3.read_unread, harg4.read_unread, harg5.read_unread, harg6.read_unread, harg7.read_unread, harg8.read_unread, View.ld_unit_zero (S := S1024x512) hz2, View.ld_unit_zero (S := S1024x1) hz2, View.ld_unit_zero (S := S1x1024) hz2]

end Cert.Hinge.K1

end
-- ==== Proof.Value1.Pay.lean ====
/-
  The two payloads of the second kernel region's body, read at a row `x` of their column: the cleared accumulator is zero;
  the accumulated one is what the accumulator held plus the row's sum, over the 1024 columns `y` of the block, of the hinge
  `max(posm y − √(max((psq x + ssq y) − 2 ⟨photo x, sketch y⟩, 0)), 0)`.
-/
import proofs.«124219_j11227044511928_2_alg».proof.Proof.Gen.KernelIdeal.Skeleton
import proofs.«124219_j11227044511928_2_alg».proof.Proof.Spec
import proofs.«124219_j11227044511928_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hinge.K1

open Cert.KernelIdeal Cert.KernelIdeal.Gen
open Idealize.ShloMosaic
open Idealize.ShloMosaic.ValueIdx

/-- The dimension numbers of the body's matrix product: rows against rows, contracted along the 512 entries. -/
abbrev gramDims := dot_S1024x512_S1024x512_S1024x1024_1_1_0_0_n_n

/-- The cleared accumulator is zero at every row. -/
theorem pay1_apply (x : Fin 1024) : k1_pay1 (F := Ideal) (ix2 x (0 : Fin 1)) = 0 := by
  unfold k1_pay1
  refine (congrFun (shapeCast_self _ shapeCasts_S1024x1_S1024x1) (ix2 x (0 : Fin 1))).trans ?_
  exact Ideal.ofBits_zero_f32

/-- A row of 1024 entries, recast to its own shape and repeated down 1024 rows, reads at `(x, y)` its entry `y`. -/
theorem rowBcast_apply (v : FVec Ideal S1x1024 .f32) (x y : Fin 1024) :
    broadcastTo S1024x1024 (shapeCast S1x1024 v shapeCasts_S1x1024_S1x1024) broadcasts_S1x1024_S1024x1024 (ix2 x y) = v (ix2 (0 : Fin 1) y) := by
  rw [shapeCast_self]
  exact broadcastTo_1b_ab_apply v _ x y

/-- A column of 1024 entries, recast to its own shape and repeated along 1024 columns, reads at `(x, y)` its entry `x`. -/
theorem colBcast_apply (v : FVec Ideal S1024x1 .f32) (x y : Fin 1024) :
    broadcastTo S1024x1024 (shapeCast S1024x1 v shapeCasts_S1024x1_S1024x1) broadcasts_S1024x1_S1024x1024 (ix2 x y) = v (ix2 x (0 : Fin 1)) := by
  rw [shapeCast_self]
  exact Cert.Attn.Layout.broadcastTo_a1_ab_apply v _ x y

theorem gram_lhs0 (i : S1024x1024.Idx) (q : gramDims.contr.Idx) : (gramDims.lhsIdx i q 0).val = (i 0).val := by
  unfold DotDims.lhsIdx
  rw [dif_neg (show ¬(0 : Fin S1024x512.rank) ∈ gramDims.lhsBatch by decide), dif_pos (show (0 : Fin S1024x512.rank) ∈ gramDims.lhsNonContracting by decide)]
  rfl
theorem gram_lhs1 (i : S1024x1024.Idx) (q : gramDims.contr.Idx) : (gramDims.lhsIdx i q 1).val = (q ⟨0, by decide⟩).val :=
  gramDims.lhsIdx_val_of_single rfl i q
theorem gram_rhs0 (i : S1024x1024.Idx) (q : gramDims.contr.Idx) : (gramDims.rhsIdx i q 0).val = (i 1).val := by
  unfold DotDims.rhsIdx
  rw [dif_neg (show ¬(0 : Fin S1024x512.rank) ∈ gramDims.rhsBatch by decide), dif_pos (show (0 : Fin S1024x512.rank) ∈ gramDims.rhsNonContracting by decide)]
  rfl
theorem gram_rhs1 (i : S1024x1024.Idx) (q : gramDims.contr.Idx) : (gramDims.rhsIdx i q 1).val = (q ⟨0, by decide⟩).val :=
  gramDims.rhsIdx_val_of_single rfl i q

/-- The matrix product of two blocks of rows into a zero accumulator reads, at `(x, y)`, the inner product of row `x` of
    the first with row `y` of the second. -/
theorem gram_apply (v3 v5 : FVec Ideal S1024x512 .bf16) (x y : Fin 1024) :
    matmul gramDims none (shapeCast S1024x512 v3 shapeCasts_S1024x512_S1024x512) (shapeCast S1024x512 v5 shapeCasts_S1024x512_S1024x512)
        (constant (F := Ideal) S1024x1024 .f32 0x00000000#32) (ix2 x y)
      = ∑ k : Fin 512, v3 (ix2 x k) * v5 (ix2 y k) := by
  rw [shapeCast_self, shapeCast_self]
  simp only [matmul]
  rw [Ideal.matmul_constant_zero_apply, ← Equiv.sum_comp (contrEquiv1 gramDims 512 rfl rfl).symm]
  refine Finset.sum_congr rfl fun k _ => ?_
  have hk := contrEquiv1_symm_val gramDims 512 rfl rfl k
  have el : gramDims.lhsIdx (ix2 x y) ((contrEquiv1 gramDims 512 rfl rfl).symm k) = ix2 x k := funext fun a => Fin.ext (by
    match a with
    | ⟨0, _⟩ => exact gram_lhs0 _ _
    | ⟨1, _⟩ => exact (gram_lhs1 _ _).trans hk)
  have er : gramDims.rhsIdx (ix2 x y) ((contrEquiv1 gramDims 512 rfl rfl).symm k) = ix2 y k := funext fun a => Fin.ext (by
    match a with
    | ⟨0, _⟩ => exact gram_rhs0 _ _
    | ⟨1, _⟩ => exact (gram_rhs1 _ _).trans hk)
  rw [el, er]

/-- The accumulated payload at row `x`. -/
theorem pay2_apply (v3 v5 : FVec Ideal S1024x512 .bf16) (v8 : FVec Ideal S1024x1 .f32) (v10 v12 : FVec Ideal S1x1024 .f32)
    (v29 : FVec Ideal S1024x1 .f32) (x : Fin 1024) :
    k1_pay2 (F := Ideal) v3 v5 v8 v10 v12 v29 (ix2 x (0 : Fin 1))
      = v29 (ix2 x (0 : Fin 1)) + ∑ y : Fin 1024, max (v12 (ix2 (0 : Fin 1) y) - Ideal.sqrt (max ((v8 (ix2 x (0 : Fin 1)) + v10 (ix2 (0 : Fin 1) y)) - Cert.Hinge.two * ∑ k : Fin 512, v3 (ix2 x k) * v5 (ix2 y k)) 0)) 0 := by
  unfold k1_pay2
  refine (congrFun (shapeCast_self _ shapeCasts_S1024x1_S1024x1) (ix2 x (0 : Fin 1))).trans ?_
  refine congrArg (fun z : EReal => v29 (ix2 x (0 : Fin 1)) + z) ?_
  refine (Cert.Attn.Layout.shapeCast_a_a1_apply _ shapeCasts_S1024_S1024x1 x (0 : Fin 1)).trans ?_
  refine (Cert.Attn.Layout.rowSum_apply _ reduces_S1024x1024_S1024 (.inl rfl) rfl x).trans ?_
  refine Finset.sum_congr rfl fun y _ => ?_
  show max (broadcastTo S1024x1024 (shapeCast S1x1024 v12 shapeCasts_S1x1024_S1x1024) broadcasts_S1x1024_S1024x1024 (ix2 x y)
      - Ideal.sqrt (max ((broadcastTo S1024x1024 (shapeCast S1024x1 v8 shapeCasts_S1024x1_S1024x1) broadcasts_S1024x1_S1024x1024 (ix2 x y)
            + broadcastTo S1024x1024 (shapeCast S1x1024 v10 shapeCasts_S1x1024_S1x1024) broadcasts_S1x1024_S1024x1024 (ix2 x y))
          - Ideal.ofBits .f32 0x40000000#32 * matmul gramDims none (shapeCast S1024x512 v3 shapeCasts_S1024x512_S1024x512) (shapeCast S1024x512 v5 shapeCasts_S1024x512_S1024x512)
              (constant (F := Ideal) S1024x1024 .f32 0x00000000#32) (ix2 x y)) (Ideal.ofBits .f32 0x00000000#32))) (Ideal.ofBits .f32 0x00000000#32) = _
  rw [rowBcast_apply v12, colBcast_apply, rowBcast_apply v10, gram_apply, Ideal.ofBits_zero_f32]
  rfl

end Cert.Hinge.K1

end
-- ==== Proof.Value1.Blocks1.lean ====
/-
  The blocks of the second kernel region's five input windows, read at an index: over the 4 × 4 grid the point `t` works on
  row block `t / 4` and column block `t % 4`, each of 1024 rows of the arrays the region finds. The photo rows, their squared
  norms (a column) come by the row block; the sketch rows by the column block, and so do their squared norms and the shifted
  aligned distances, which lie along a row.
-/
import proofs.«124219_j11227044511928_2_alg».proof.Proof.FrameKernelIdeal.Reg1Runs
import Idealize.ShloMosaic.Lib.Pipeline.Value
import Idealize.ShloMosaic.Lib.ValueIdx

noncomputable section

namespace Cert.Hinge.K1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The grid has sixteen points. -/
theorem point_lt (t : Fin cfg1.N) : t.val < 16 := Nat.lt_of_lt_of_eq t.isLt N_1

/-- The array row that row `x` of point `t`'s row block is. -/
def rowOf (t : Fin cfg1.N) (x : Fin 1024) : Fin 4096 :=
  ⟨1024 * (t.val / 4) + x.val, by have := point_lt t; have := x.isLt; omega⟩
/-- The array row that row `y` of point `t`'s column block is. -/
def colOf (t : Fin cfg1.N) (y : Fin 1024) : Fin 4096 :=
  ⟨1024 * (t.val % 4) + y.val, by have := y.isLt; omega⟩

theorem rowOf_val (t : Fin cfg1.N) (x : Fin 1024) : (rowOf t x).val = 1024 * (t.val / 4) + x.val := rfl
theorem colOf_val (t : Fin cfg1.N) (y : Fin 1024) : (colOf t y).val = 1024 * (t.val % 4) + y.val := rfl

/-- Every input window's block index at point `t`, decided over the grid. -/
theorem idx_facts : ∀ t : Fin cfg1.N,
    (win1_0.index t (0 : Fin 2) = t.val / 4 ∧ win1_0.index t (1 : Fin 2) = 0)
    ∧ (win1_1.index t (0 : Fin 2) = t.val % 4 ∧ win1_1.index t (1 : Fin 2) = 0)
    ∧ (win1_2.index t (0 : Fin 2) = t.val / 4 ∧ win1_2.index t (1 : Fin 2) = 0)
    ∧ (win1_3.index t (0 : Fin 2) = 0 ∧ win1_3.index t (1 : Fin 2) = t.val % 4)
    ∧ (win1_4.index t (0 : Fin 2) = 0 ∧ win1_4.index t (1 : Fin 2) = t.val % 4) :=
  (by decide +kernel : ∀ t : Fin grid1.N, _)

theorem blockIndex0 (t : Fin cfg1.N) : win1_0.index t (0 : Fin 2) = t.val / 4 ∧ win1_0.index t (1 : Fin 2) = 0 := (idx_facts t).1
theorem blockIndex1 (t : Fin cfg1.N) : win1_1.index t (0 : Fin 2) = t.val % 4 ∧ win1_1.index t (1 : Fin 2) = 0 := (idx_facts t).2.1
theorem blockIndex2 (t : Fin cfg1.N) : win1_2.index t (0 : Fin 2) = t.val / 4 ∧ win1_2.index t (1 : Fin 2) = 0 := (idx_facts t).2.2.1
theorem blockIndex3 (t : Fin cfg1.N) : win1_3.index t (0 : Fin 2) = 0 ∧ win1_3.index t (1 : Fin 2) = t.val % 4 := (idx_facts t).2.2.2.1
theorem blockIndex4 (t : Fin cfg1.N) : win1_4.index t (0 : Fin 2) = 0 ∧ win1_4.index t (1 : Fin 2) = t.val % 4 := (idx_facts t).2.2.2.2

-- the TensorCore's buffer contents when the region is entered
variable (V : (c : Dev nD) → (b : Ref sig .tc) → Buf (Elt Ideal) ((c : Thread nD τ).loc b))

/-- Window 0's block at point `t`: the rows of the photo array of the point's row block. -/
theorem iblk1_0_apply (c : Dev nD) (t : Fin cfg1.N) (x : Fin 1024) (k : Fin 512) :
    iblk1 V c 0 t (ix2 x k) = V c main_v0_4 (ix2 (rowOf t x) k) := by
  unfold iblk1
  rw [View.read_apply]
  show V c main_v0_4 _ = V c main_v0_4 _
  congr 1
  funext a
  apply Fin.ext
  match a with
  | ⟨0, _⟩ => show win1_0.index t (0 : Fin 2) * 1024 + 1 * x.val = 1024 * (t.val / 4) + x.val; rw [(blockIndex0 t).1]; omega
  | ⟨1, _⟩ => show win1_0.index t (1 : Fin 2) * 512 + 1 * k.val = k.val; rw [(blockIndex0 t).2]; omega

/-- Window 1's block at point `t`: the rows of the sketch array of the point's column block. -/
theorem iblk1_1_apply (c : Dev nD) (t : Fin cfg1.N) (y : Fin 1024) (k : Fin 512) :
    iblk1 V c 1 t (ix2 y k) = V c main_v0_3 (ix2 (colOf t y) k) := by
  unfold iblk1
  rw [View.read_apply]
  show V c main_v0_3 _ = V c main_v0_3 _
  congr 1
  funext a
  apply Fin.ext
  match a with
  | ⟨0, _⟩ => show win1_1.index t (0 : Fin 2) * 1024 + 1 * y.val = 1024 * (t.val % 4) + y.val; rw [(blockIndex1 t).1]; omega
  | ⟨1, _⟩ => show win1_1.index t (1 : Fin 2) * 512 + 1 * k.val = k.val; rw [(blockIndex1 t).2]; omega

/-- Window 2's block at point `t`: the column of squared photo norms, at the rows of the point's row block. -/
theorem iblk1_2_apply (c : Dev nD) (t : Fin cfg1.N) (x : Fin 1024) :
    iblk1 V c 2 t (ix2 x (0 : Fin 1)) = V c main_v0_1 (ix2 (rowOf t x) (0 : Fin 1)) := by
  unfold iblk1
  rw [View.read_apply]
  show V c main_v0_1 _ = V c main_v0_1 _
  congr 1
  funext a
  apply Fin.ext
  match a with
  | ⟨0, _⟩ => show win1_2.index t (0 : Fin 2) * 1024 + 1 * x.val = 1024 * (t.val / 4) + x.val; rw [(blockIndex2 t).1]; omega
  | ⟨1, _⟩ => show win1_2.index t (1 : Fin 2) * 1 + 1 * 0 = 0; rw [(blockIndex2 t).2]

/-- Window 3's block at point `t`: the row of squared sketch norms, at the columns of the point's column block. -/
theorem iblk1_3_apply (c : Dev nD) (t : Fin cfg1.N) (y : Fin 1024) :
    iblk1 V c 3 t (ix2 (0 : Fin 1) y) = V c main_v1 (ix2 (0 : Fin 1) (colOf t y)) := by
  unfold iblk1
  rw [View.read_apply]
  show V c main_v1 _ = V c main_v1 _
  congr 1
  funext a
  apply Fin.ext
  match a with
  | ⟨0, _⟩ => show win1_3.index t (0 : Fin 2) * 1 + 1 * 0 = 0; rw [(blockIndex3 t).1]
  | ⟨1, _⟩ => show win1_3.index t (1 : Fin 2) * 1024 + 1 * y.val = 1024 * (t.val % 4) + y.val; rw [(blockIndex3 t).2]; omega

/-- Window 4's block at point `t`: the row of shifted aligned distances, at the columns of the point's column block. -/
theorem iblk1_4_apply (c : Dev nD) (t : Fin cfg1.N) (y : Fin 1024) :
    iblk1 V c 4 t (ix2 (0 : Fin 1) y) = V c main_v2 (ix2 (0 : Fin 1) (colOf t y)) := by
  unfold iblk1
  rw [View.read_apply]
  show V c main_v2 _ = V c main_v2 _
  congr 1
  funext a
  apply Fin.ext
  match a with
  | ⟨0, _⟩ => show win1_4.index t (0 : Fin 2) * 1 + 1 * 0 = 0; rw [(blockIndex4 t).1]
  | ⟨1, _⟩ => show win1_4.index t (1 : Fin 2) * 1024 + 1 * y.val = 1024 * (t.val % 4) + y.val; rw [(blockIndex4 t).2]; omega

end Cert.Hinge.K1

end
-- ==== Proof.Value1.lean ====
/-
  The output column of the pairwise-hinge region, read at a row. The region's grid is 4 × 4: point `t` works on row block
  `t / 4` and column block `t % 4`, the accumulator is cleared at the first column block of each row block and written to
  the output at the last. For the row `i = 1024 · (t / 4) + x`, the payload at a point adds to the accumulator's entry `x`
  the row's hinge summed over the point's column block; so after the point numbered `n` the entry is the ordered chain
  `((0 + B₀) + B₁) + …` of the block sums `B₀ … B_{n % 4}` of that row (by induction on the point), and at the last column
  block the value written back is the chain through all four blocks — the row's accumulator of the specification. The
  points of the last column block are the only ones that write back, and their blocks cover the output column.
-/
import proofs.«124219_j11227044511928_2_alg».proof.Proof.FrameKernelIdeal.Reg1
import proofs.«124219_j11227044511928_2_alg».proof.Proof.Blocks
import proofs.«124219_j11227044511928_2_alg».proof.Proof.Value1.Pieces
import proofs.«124219_j11227044511928_2_alg».proof.Proof.Value1.Pay
import proofs.«124219_j11227044511928_2_alg».proof.Proof.Value1.Blocks1
import Idealize.ShloMosaic.Lib.Pipeline.Value
import Idealize.ShloMosaic.Lib.ValueIdx
import Idealize.ShloMosaic.Lib.Tactic

set_option maxRecDepth 16384

noncomputable section

open scoped BigOperators

namespace Cert.Hinge.K1

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))
variable (s p : Fin 4096 → Fin 512 → EReal)

/-! ## One point's contribution -/

/-- Row `i`'s hinge summed over the column block numbered `b` modulo four. -/
def blockN (i : Fin 4096) (b : ℕ) : EReal := Cert.Hinge.blockSum s p i ⟨b % 4, Nat.mod_lt _ (by norm_num)⟩

theorem blockN_congr (i : Fin 4096) {a b : ℕ} (h : a % 4 = b % 4) : blockN s p i a = blockN s p i b := by
  unfold blockN
  exact congrArg (Cert.Hinge.blockSum s p i) (Fin.ext h)

/-- A row's accumulator after the column blocks `0 … b`, added onto zero in block order. -/
def chain (i : Fin 4096) : ℕ → EReal
  | 0 => 0 + blockN s p i 0
  | b + 1 => chain i b + blockN s p i (b + 1)

/-- The accumulator after all four column blocks is the specification's. -/
theorem rowAcc_eq_chain (i : Fin 4096) : Cert.Hinge.rowAcc s p i = chain s p i 3 := rfl

section Points

variable {V s p}
variable (c : Dev nD) (hP : ∀ i k, V c main_v0_4 (ix2 i k) = p i k) (hS : ∀ i k, V c main_v0_3 (ix2 i k) = s i k)
    (hPsq : ∀ i, V c main_v0_1 (ix2 i (0 : Fin 1)) = Cert.Hinge.sqn p i)
    (hSsq : ∀ j, V c main_v1 (ix2 (0 : Fin 1) j) = Cert.Hinge.sqn s j)
    (hPosm : ∀ j, V c main_v2 (ix2 (0 : Fin 1) j) = Cert.Hinge.pos s p j + Cert.Hinge.margin)
include hP hS hPsq hSsq hPosm

/-- The payload at a point, read at row `x` of the block: what the accumulator held there plus the row's hinge summed over the
    point's column block. The five input blocks are the photos' rows, the sketches' rows, their squared norms and the
    shifted aligned distances, at the point's row block and column block. -/
theorem step (t : Fin cfg1.N) (x : Fin 1024) (xs0 : Vec Ideal S1024x1 .f32) :
    k1_pay2 (F := Ideal) (iblk1 V c 0 t) (iblk1 V c 1 t) (iblk1 V c 2 t) (iblk1 V c 3 t) (iblk1 V c 4 t) xs0 (ix2 x (0 : Fin 1))
      = xs0 (ix2 x (0 : Fin 1)) + blockN s p (rowOf t x) t.val := by
  refine (pay2_apply (iblk1 V c 0 t) (iblk1 V c 1 t) (iblk1 V c 2 t) (iblk1 V c 3 t) (iblk1 V c 4 t) xs0 x).trans ?_
  refine congrArg (fun z : EReal => xs0 (ix2 x (0 : Fin 1)) + z) ?_
  unfold blockN Cert.Hinge.blockSum Cert.Hinge.hinge Cert.Hinge.neg Cert.Hinge.cross
  refine Finset.sum_congr rfl fun y _ => ?_
  rw [iblk1_4_apply V c t y, iblk1_2_apply V c t x, iblk1_3_apply V c t y, hPosm, hPsq, hSsq]
  exact congrArg
    (fun z : EReal => max (Cert.Hinge.pos s p (colOf t y) + Cert.Hinge.margin
      - Ideal.sqrt (max (Cert.Hinge.sqn p (rowOf t x) + Cert.Hinge.sqn s (colOf t y) - Cert.Hinge.two * z) 0)) 0)
    (Finset.sum_congr rfl fun k _ => by rw [iblk1_0_apply V c t x k, iblk1_1_apply V c t y k, hP, hS]; rfl)

/-- At a point of the first column block the accumulator restarts from zero. -/
theorem acc_at_A (t : Fin cfg1.N) (h0 : t.val % 4 = 0) (h1 : ¬t.val % 4 = 3) (x : Fin 1024) :
    (outsAt1 V c t.val t.isLt).2 (ix2 x (0 : Fin 1)) = 0 + blockN s p (rowOf t x) t.val := by
  rw [outsAt1_A V c t h0 h1]
  dsimp only
  refine (congrFun (acc_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) (ix2 x (0 : Fin 1))).trans ?_
  refine (step c hP hS hPsq hSsq hPosm t x (k1_pay1 (F := Ideal))).trans ?_
  rw [pay1_apply x]

/-- At a point of a middle column block it grows by the block's row sums. -/
theorem acc_at_B (t : Fin cfg1.N) (h0 : ¬t.val % 4 = 0) (h1 : ¬t.val % 4 = 3) (x : Fin 1024) :
    (outsAt1 V c t.val t.isLt).2 (ix2 x (0 : Fin 1))
      = (outsAt1 V c (t.val - 1) (Nat.lt_of_le_of_lt (Nat.sub_le _ _) t.isLt)).2 (ix2 x (0 : Fin 1)) + blockN s p (rowOf t x) t.val := by
  rw [outsAt1_B V c t h0 h1]
  dsimp only
  refine (congrFun (acc_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 x (0 : Fin 1))).trans ?_
  exact step c hP hS hPsq hSsq hPosm t x _

/-- At a point of the last column block likewise, -/
theorem acc_at_C (t : Fin cfg1.N) (h0 : ¬t.val % 4 = 0) (h1 : t.val % 4 = 3) (x : Fin 1024) :
    (outsAt1 V c t.val t.isLt).2 (ix2 x (0 : Fin 1))
      = (outsAt1 V c (t.val - 1) (Nat.lt_of_le_of_lt (Nat.sub_le _ _) t.isLt)).2 (ix2 x (0 : Fin 1)) + blockN s p (rowOf t x) t.val := by
  rw [outsAt1_C V c t h0 h1]
  dsimp only
  refine (congrFun (acc_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 x (0 : Fin 1))).trans ?_
  exact step c hP hS hPsq hSsq hPosm t x _

/-- and the output's buffer holds the same value. -/
theorem out_at_C (t : Fin cfg1.N) (h0 : ¬t.val % 4 = 0) (h1 : t.val % 4 = 3) (x : Fin 1024) :
    (outsAt1 V c t.val t.isLt).1 (ix2 x (0 : Fin 1))
      = (outsAt1 V c (t.val - 1) (Nat.lt_of_le_of_lt (Nat.sub_le _ _) t.isLt)).2 (ix2 x (0 : Fin 1)) + blockN s p (rowOf t x) t.val := by
  rw [outsAt1_C V c t h0 h1]
  dsimp only
  refine (congrFun (out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 x (0 : Fin 1))).trans ?_
  exact step c hP hS hPsq hSsq hPosm t x _

/-! ## The accumulator after each point is the ordered chain -/

/-- After the point numbered `n`, row `x` of the accumulator is the chain, for the row of the point's row block, up to the
    point's column block: by induction on the point, never by enumerating the grid. -/
theorem acc_eq : ∀ (n : ℕ) (hn : n < cfg1.N) (x : Fin 1024),
    (outsAt1 V c n hn).2 (ix2 x (0 : Fin 1)) = chain s p (rowOf ⟨n, hn⟩ x) (n % 4)
  | 0, hn, x => (acc_at_A c hP hS hPsq hSsq hPosm ⟨0, hn⟩ rfl (by dsimp only; omega) x).trans rfl
  | n + 1, hn, x => by
    have hN : cfg1.N = 16 := N_1
    by_cases h0 : (n + 1) % 4 = 0
    · refine (acc_at_A c hP hS hPsq hSsq hPosm ⟨n + 1, hn⟩ h0 (by dsimp only; omega) x).trans ?_
      rw [h0]
      show 0 + blockN s p _ (n + 1) = 0 + blockN s p _ 0
      rw [blockN_congr s p _ (show (n + 1) % 4 = 0 % 4 from h0)]
    · have hrow : rowOf ⟨n, Nat.lt_of_succ_lt hn⟩ x = rowOf ⟨n + 1, hn⟩ x := Fin.ext (by
        show 1024 * (n / 4) + x.val = 1024 * ((n + 1) / 4) + x.val
        omega)
      have hmod : (n + 1) % 4 = n % 4 + 1 := by omega
      have ih := acc_eq n (Nat.lt_of_succ_lt hn) x
      have hstep : (outsAt1 V c (n + 1) hn).2 (ix2 x (0 : Fin 1))
          = (outsAt1 V c n (Nat.lt_of_succ_lt hn)).2 (ix2 x (0 : Fin 1)) + blockN s p (rowOf ⟨n + 1, hn⟩ x) (n + 1) := by
        by_cases h1 : (n + 1) % 4 = 3
        · exact acc_at_C c hP hS hPsq hSsq hPosm ⟨n + 1, hn⟩ h0 h1 x
        · exact acc_at_B c hP hS hPsq hSsq hPosm ⟨n + 1, hn⟩ h0 h1 x
      rw [hstep, ih, hrow, hmod]
      show _ = chain s p _ (n % 4) + blockN s p _ (n % 4 + 1)
      rw [blockN_congr s p _ (show (n + 1) % 4 = (n % 4 + 1) % 4 by omega)]

end Points

/-! ## From the blocks to the output array -/

/-- The output window's block index at a point, decided over the sixteen points: the row block, and zero along the one column. -/
theorem outIndex : ∀ t : Fin cfg1.N, win1_5.index t (0 : Fin 2) = t.val / 4 ∧ win1_5.index t (1 : Fin 2) = 0 :=
  (by decide +kernel : ∀ t : Fin grid1.N, _)

/-- The column of the rows' accumulators. -/
def accCol : S4096x1.Idx → EReal := fun I => Cert.Hinge.rowAcc s p ⟨(I 0).val, idx2_lt0 I⟩

section Array

variable {V s p}
variable (c : Dev nD) (hP : ∀ i k, V c main_v0_4 (ix2 i k) = p i k) (hS : ∀ i k, V c main_v0_3 (ix2 i k) = s i k)
    (hPsq : ∀ i, V c main_v0_1 (ix2 i (0 : Fin 1)) = Cert.Hinge.sqn p i)
    (hSsq : ∀ j, V c main_v1 (ix2 (0 : Fin 1) j) = Cert.Hinge.sqn s j)
    (hPosm : ∀ j, V c main_v2 (ix2 (0 : Fin 1) j) = Cert.Hinge.pos s p j + Cert.Hinge.margin)
include hP hS hPsq hSsq hPosm

/-- What a point of the last column block writes back to the output array is its block of that column. -/
theorem flushed5_eq (t : Fin cfg1.N) (hf : (cfg1.win 5).flush t = true) :
    (dat1 V c).flushed 5 t = ((cfg1.win 5).blk t).view.read (Elt Ideal) (accCol s p) := by
  have h3 : t.val % 4 = 3 := (flush1_5 t).mp hf
  have h0 : ¬t.val % 4 = 0 := by omega
  show (cfg1.win 5).cut (grid1.coords t) ((dat1 V c).after 5 t) = _
  rw [after1_5]
  funext j
  obtain ⟨x, u, rfl⟩ : ∃ (x : Fin 1024) (u : Fin 1), j = ix2 x u := ⟨j 0, j 1, eq_ix2 j⟩
  obtain rfl : u = 0 := Subsingleton.elim _ _
  show (outsAt1 V c t.val t.isLt).1 (ix2 x (0 : Fin 1)) = accCol s p (((cfg1.win 5).blk t).view.emb (ix2 x (0 : Fin 1)))
  refine (out_at_C c hP hS hPsq hSsq hPosm t h0 h3 x).trans ?_
  refine (acc_at_C c hP hS hPsq hSsq hPosm t h0 h3 x).symm.trans ?_
  refine (acc_eq c hP hS hPsq hSsq hPosm t.val t.isLt x).trans ?_
  rw [h3, ← rowAcc_eq_chain]
  unfold accCol
  refine congrArg (Cert.Hinge.rowAcc s p) (Fin.ext ?_)
  show 1024 * (t.val / 4) + x.val = win1_5.index t (0 : Fin 2) * 1024 + 1 * x.val
  rw [(outIndex t).1]; omega

omit hP hS hPsq hSsq hPosm in
/-- An index of the output array is in a point's block iff each coordinate is in the block's range on its axis. -/
theorem mem_blk5 (t : Fin cfg1.N) (i : S4096x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v3).slice (win1_5.rect t)).set ↔ _
  rw [View.set_slice_whole, Rect.mem_set_unit]
  exact Iff.rfl

omit hP hS hPsq hSsq hPosm in
/-- Row `r` of the output array is in the block of the last point of row block `r / 1024`. -/
theorem cover5 (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hlt : 4 * ((i 0).val / 1024) + 3 < cfg1.N := by rw [show cfg1.N = 16 from N_1]; omega
  refine ⟨⟨4 * ((i 0).val / 1024) + 3, hlt⟩, (flush1_5 _).mpr (by dsimp only; omega), ?_⟩
  rw [mem_blk5]
  obtain ⟨e0, e1⟩ := outIndex ⟨4 * ((i 0).val / 1024) + 3, hlt⟩
  intro a
  match a with
  | ⟨0, _⟩ =>
    show win1_5.index ⟨4 * ((i 0).val / 1024) + 3, hlt⟩ (0 : Fin 2) * 1024 ≤ (i 0).val ∧ (i 0).val < win1_5.index ⟨4 * ((i 0).val / 1024) + 3, hlt⟩ (0 : Fin 2) * 1024 + 1024
    rw [e0]; show (4 * ((i 0).val / 1024) + 3) / 4 * 1024 ≤ (i 0).val ∧ (i 0).val < (4 * ((i 0).val / 1024) + 3) / 4 * 1024 + 1024; omega
  | ⟨1, _⟩ =>
    show win1_5.index ⟨4 * ((i 0).val / 1024) + 3, hlt⟩ (1 : Fin 2) * 1 ≤ (i 1).val ∧ (i 1).val < win1_5.index ⟨4 * ((i 0).val / 1024) + 3, hlt⟩ (1 : Fin 2) * 1 + 1
    rw [e1]; omega

/-- The output array after the region: the column of the rows' accumulators. -/
theorem final5 : (dat1 V c).arrAt 5 cfg1.N = accCol s p :=
  (dat1 V c).arrAt_eq_of_cover 5 (accCol s p) (fun t hf => flushed5_eq c hP hS hPsq hSsq hPosm t hf) cover5

end Array

/-- The output array after the region, read at row `i`: the row's accumulator after the four column blocks. -/
theorem arr5 (c : Dev nD)
    (hP : ∀ i k, V c main_v0_4 (ix2 i k) = p i k) (hS : ∀ i k, V c main_v0_3 (ix2 i k) = s i k)
    (hPsq : ∀ i, V c main_v0_1 (ix2 i (0 : Fin 1)) = Cert.Hinge.sqn p i)
    (hSsq : ∀ j, V c main_v1 (ix2 (0 : Fin 1) j) = Cert.Hinge.sqn s j)
    (hPosm : ∀ j, V c main_v2 (ix2 (0 : Fin 1) j) = Cert.Hinge.pos s p j + Cert.Hinge.margin)
    (i : Fin 4096) :
    (Cert.KernelIdeal.Hand.dat1 V c).arrAt 5 cfg1.N (ix2 i (0 : Fin 1)) = Cert.Hinge.rowAcc s p i := by
  rw [final5 c hP hS hPsq hSsq hPosm]; rfl

end Cert.Hinge.K1

end
-- ==== Proof.HostStretch.lean ====
/-
  The two stretches of host operations of the kernel's program, read as values over an arbitrary assignment of
  contents to the buffers: the two transposes lay a column out as a row, and the tail sums the per-row partial
  totals and takes the diagonal's constant off.
-/
import proofs.«124219_j11227044511928_2_alg».proof.Proof.Gen.KernelIdeal.Launch
import proofs.«124219_j11227044511928_2_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

open scoped BigOperators

namespace Cert.Hinge.Host

open Cert.KernelIdeal Cert.KernelIdeal.Gen Idealize.ShloMosaic Idealize.ShloMosaic.ValueIdx Idealize.ShloMosaic.StableHlo

/-- After the first stretch, the first row buffer is the transpose of the first column buffer. -/
theorem v1_eq (X : Valuation τ sig (Elt Ideal)) :
    (StableHlo.after (hostOps1 (F := Ideal)) X (Proc.devRef .tc main_v1) : S1x4096.Idx → EReal)
      = transpose S1x4096 [1, 0] (X (Proc.devRef .tc main_v0_0) : S4096x1.Idx → EReal) transposes_S4096x1_S1x4096_1_0 := by
  after_results

/-- After the first stretch, the second row buffer is the transpose of the second column buffer. -/
theorem v2_eq (X : Valuation τ sig (Elt Ideal)) :
    (StableHlo.after (hostOps1 (F := Ideal)) X (Proc.devRef .tc main_v2) : S1x4096.Idx → EReal)
      = transpose S1x4096 [1, 0] (X (Proc.devRef .tc main_v0_2) : S4096x1.Idx → EReal) transposes_S4096x1_S1x4096_1_0 := by
  after_results

/-- The first row buffer at column `j` is the first column buffer at row `j`. -/
theorem v1_at (X : Valuation τ sig (Elt Ideal)) (j : Fin 4096) :
    StableHlo.after (hostOps1 (F := Ideal)) X (Proc.devRef .tc main_v1) (ix2 (0 : Fin 1) j)
      = X (Proc.devRef .tc main_v0_0) (ix2 j (0 : Fin 1)) := by
  rw [v1_eq]
  exact transpose_ix2_apply _ _ (0 : Fin 1) j

/-- The second row buffer at column `j` is the second column buffer at row `j`. -/
theorem v2_at (X : Valuation τ sig (Elt Ideal)) (j : Fin 4096) :
    StableHlo.after (hostOps1 (F := Ideal)) X (Proc.devRef .tc main_v2) (ix2 (0 : Fin 1) j)
      = X (Proc.devRef .tc main_v0_2) (ix2 j (0 : Fin 1)) := by
  rw [v2_eq]
  exact transpose_ix2_apply _ _ (0 : Fin 1) j

/-- After the tail, the result is the sum of the column of partial totals less the constant. -/
theorem v5_term (X : Valuation τ sig (Elt Ideal)) :
    (StableHlo.after (hostOps2 (F := Ideal)) X (Proc.devRef .tc main_v5) : S_.Idx → EReal)
      = subf (Host.reduceAdd (X (Proc.devRef .tc main_v3) : S4096x1.Idx → EReal) (constant (F := Ideal) S_ .f32 0x00000000#32) reducesTo_S4096x1_S_d0_1 h_S_)
          (constant (F := Ideal) S_ .f32 0x4499999A#32) := by
  after_results

theorem v5_eq (X : Valuation τ sig (Elt Ideal)) :
    StableHlo.after (hostOps2 (F := Ideal)) X (Proc.devRef .tc main_v5)
      = fun _ => ((0 : EReal) + (∑ i : Fin 4096, X (Proc.devRef .tc main_v3) (ix2 i (0 : Fin 1)) : EReal)) - Cert.Hinge.offset := by
  rw [v5_term]
  generalize (X (Proc.devRef .tc main_v3) : S4096x1.Idx → EReal) = y
  funext i0
  show FloatOps.subf _ _ = _
  simp only [Host.reduceAdd, Ideal.hostReduceAdd_def, Ideal.subf_def]
  rw [Ideal.hostReduceAdd_total reducesTo_S4096x1_S_d0_1 (fun b => b.elim0) y _ _, ValueIdx.sum_idx2]
  simp only [constant, Ideal.ofBits_def, Ideal.ofBits_zero_f32, Fin.sum_univ_one]
  rfl

end Cert.Hinge.Host

end
-- ==== Proof.BlocksAlgebra.lean ====
/-
  The blocked total is the unmasked total: cutting each row's 4096 columns into four blocks of 1024, summing block by block onto
  zero, and summing the rows onto zero only regroups a finite sum in a commutative monoid. The pairs (block, entry) are in
  bijection with the columns through `(b, y) ↦ 1024 · b + y`, whose inverse is `j ↦ (j / 1024, j % 1024)`.
-/
import proofs.«124219_j11227044511928_2_alg».proof.Proof.Blocks

noncomputable section

open scoped BigOperators

namespace Cert.Hinge

/-- The columns as pairs (block, entry within the block). -/
def blkEquiv : Fin 4 × Fin 1024 ≃ Fin 4096 where
  toFun x := blk x.1 x.2
  invFun j := (⟨j.val / 1024, by have := j.isLt; omega⟩, ⟨j.val % 1024, Nat.mod_lt _ (by norm_num)⟩)
  left_inv := by
    rintro ⟨⟨b, hb⟩, ⟨y, hy⟩⟩
    refine Prod.ext (Fin.ext ?_) (Fin.ext ?_)
    · show (1024 * b + y) / 1024 = b
      omega
    · show (1024 * b + y) % 1024 = y
      omega
  right_inv := by
    rintro ⟨j, hj⟩
    refine Fin.ext ?_
    show 1024 * (j / 1024) + j % 1024 = j
    omega

theorem blkEquiv_apply (b : Fin 4) (y : Fin 1024) : blkEquiv (b, y) = blk b y := rfl

variable (s p : Fin 4096 → Fin 512 → EReal)

/-- A sum over the columns is the sum over the four blocks of the sums within each block. -/
theorem sum_eq_sum_blocks (f : Fin 4096 → EReal) :
    ∑ j : Fin 4096, f j = ∑ b : Fin 4, ∑ y : Fin 1024, f (blk b y) := by
  rw [← Equiv.sum_comp blkEquiv f, Fintype.sum_prod_type]
  exact Finset.sum_congr rfl fun b _ => Finset.sum_congr rfl fun y _ => congrArg f (blkEquiv_apply b y)

/-- A row's accumulator is that row's hinge summed over all columns. -/
theorem rowAcc_eq_sum (i : Fin 4096) :
    rowAcc s p i = ∑ j : Fin 4096, max ((pos s p j + margin) - neg s p i j) 0 := by
  unfold rowAcc blockSum
  rw [zero_add, sum_eq_sum_blocks, Fin.sum_univ_four]
  rfl

theorem blocked_eq_shifted : Cert.Hinge.blocked s p = Cert.Hinge.shifted s p := by
  unfold blocked shifted
  rw [zero_add, Finset.sum_congr rfl fun i _ => rowAcc_eq_sum s p i]

end Cert.Hinge

end
-- ==== Proof.Algebra.lean ====
/-
  The two arrangements of the triplet hinge loss agree on finite inputs.

  With every entry of the sketches `s` and the photos `p` a real number, each quantity of the specification is the
  coercion of a real one, so the identity is proved over the reals and carried back.

  Over the reals: off the diagonal the two summands differ by a regrouping, `(P + c) − N = (P − N) + c`, and the mask
  factor is `1 − 0 = 1`. On the diagonal the mask factor is `1 − 1 = 0`, so the masked summand is `max(0, 0) = 0`,
  while `‖p‖² + ‖s‖² − 2⟨p, s⟩ = Σ_k (s k − p k)² ≥ 0` gives `neg i i = pos i`, so the shifted summand is
  `max(c, 0) = c`. Hence the shifted double sum is the masked double sum plus `c` once per row, and the constant taken
  off, `4096 · c`, is exactly that surplus.
-/
import proofs.«124219_j11227044511928_2_alg».proof.Proof.Spec

noncomputable section

open scoped BigOperators

namespace Cert.Hinge

open Idealize.ShloMosaic

/-! ## The three literals as reals -/

/-- The margin as a real number: `10066330 / 2^25`, the binary32 value nearest `3/10`. -/
def marginR : ℝ := 10066330 / 2 ^ 25

theorem marginR_nonneg : 0 ≤ marginR := by unfold marginR; positivity

/-- The pattern of `2.0` denotes the real `2`. -/
theorem two_eq_coe : two = ((2 : ℝ) : EReal) := by
  unfold two
  simp [Ideal.ofBits, Ideal.ieee, -EReal.coe_mul]; norm_num

/-- The pattern of `0.3` denotes `(2^23 + 1677722) · 2^(125 − 127 − 23) = 10066330 / 2^25`. -/
theorem margin_eq_coe : margin = ((marginR : ℝ) : EReal) := by
  unfold margin marginR
  simp [Ideal.ofBits, Ideal.ieee, -EReal.coe_mul]; norm_num

/-- The pattern of `1228.8` denotes `(2^23 + 1677722) · 2^(137 − 127 − 23) = 10066330 / 2^13`, which is `4096` margins. -/
theorem offset_eq_coe : offset = (((4096 : ℝ) * marginR : ℝ) : EReal) := by
  unfold offset marginR
  simp [Ideal.ofBits, Ideal.ieee, -EReal.coe_mul]; norm_num

/-! ## The identity over the reals, over any finite index types -/

section RealSide

variable {ι κ : Type*} [Fintype ι] [DecidableEq ι] [Fintype κ]
variable (s p : ι → κ → ℝ) (c : ℝ)

/-- The squared norm of row `i`. -/
def sqnR (x : ι → κ → ℝ) (i : ι) : ℝ := ∑ k, x i k * x i k
/-- The aligned distance. -/
def posR (j : ι) : ℝ := Real.sqrt (∑ k, (s j k - p j k) * (s j k - p j k))
/-- The inner product of photo `i` with sketch `j`. -/
def crossR (i j : ι) : ℝ := ∑ k, p i k * s j k
/-- The cross distance through the polarization identity, clamped at zero. -/
def negR (i j : ι) : ℝ := Real.sqrt (max ((sqnR p i + sqnR s j) - 2 * crossR s p i j) 0)
/-- One summand of the unmasked arrangement. -/
def shiftedSummandR (i j : ι) : ℝ := max ((posR s p j + c) - negR s p i j) 0
/-- One summand of the masked arrangement. -/
def maskedSummandR (i j : ι) : ℝ :=
  max (((posR s p j - negR s p i j) + c) * (1 - if i = j then (1 : ℝ) else 0)) 0

/-- Polarization on the diagonal: `‖p i‖² + ‖s i‖² − 2⟨p i, s i⟩ = Σ_k (s i k − p i k)²`. -/
theorem polarization_diag (i : ι) :
    (sqnR p i + sqnR s i) - 2 * crossR s p i i = ∑ k, (s i k - p i k) * (s i k - p i k) := by
  unfold sqnR crossR
  rw [Finset.mul_sum, ← Finset.sum_add_distrib, ← Finset.sum_sub_distrib]
  exact Finset.sum_congr rfl fun k _ => by ring

/-- On the diagonal the cross distance is the aligned distance: the clamp does nothing to a sum of squares. -/
theorem negR_diag (i : ι) : negR s p i i = posR s p i := by
  unfold negR posR
  rw [polarization_diag, max_eq_left (Finset.sum_nonneg fun k _ => mul_self_nonneg _)]

/-- Pair by pair, the unmasked summand is the masked one plus the margin on the diagonal. -/
theorem shiftedSummandR_eq (hc : 0 ≤ c) (i j : ι) :
    shiftedSummandR s p c i j = maskedSummandR s p c i j + if i = j then c else 0 := by
  unfold shiftedSummandR maskedSummandR
  by_cases h : i = j
  · subst h
    rw [negR_diag, if_pos rfl, if_pos rfl, sub_self (1 : ℝ), mul_zero, max_self, zero_add, add_sub_cancel_left,
      max_eq_left hc]
  · rw [if_neg h, if_neg h, sub_zero, mul_one, add_zero]
    congr 1; ring

/-- Summed over all pairs, the unmasked total exceeds the masked total by one margin per row. -/
theorem sum_shiftedSummandR (hc : 0 ≤ c) :
    (∑ i, ∑ j, shiftedSummandR s p c i j) - (Fintype.card ι : ℝ) * c = ∑ i, ∑ j, maskedSummandR s p c i j := by
  have hrow : ∀ i, ∑ j, shiftedSummandR s p c i j = (∑ j, maskedSummandR s p c i j) + c := fun i => by
    rw [Finset.sum_congr rfl fun j _ => shiftedSummandR_eq s p c hc i j, Finset.sum_add_distrib,
      Finset.sum_ite_eq Finset.univ i fun _ => c, if_pos (Finset.mem_univ i)]
  rw [Finset.sum_congr rfl fun i _ => hrow i, Finset.sum_add_distrib, Finset.sum_const, Finset.card_univ,
    nsmul_eq_mul]
  ring

end RealSide

/-! ## Coercions: each quantity of the specification on real entries is the coercion of the real one -/

/-- The coercion of a finite real sum is the sum of the coercions. -/
theorem coe_sum {α : Type*} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of a maximum is the maximum of the coercions. -/
theorem coe_max (a b : ℝ) : ((max a b : ℝ) : EReal) = max (a : EReal) (b : EReal) :=
  EReal.coe_strictMono.monotone.map_max

/-- The square root of a nonnegative real, as an extended real, is the coercion of the real square root. -/
theorem sqrt_coe_of_nonneg {r : ℝ} (h : 0 ≤ r) : Ideal.sqrt (r : EReal) = ((Real.sqrt r : ℝ) : EReal) := by
  rw [Ideal.sqrt_coe, if_neg (not_lt.mpr h)]

section Coercions

variable {s p : Fin 4096 → Fin 512 → EReal} {sr pr : Fin 4096 → Fin 512 → ℝ}

theorem sqn_coe {x : Fin 4096 → Fin 512 → EReal} {xr : Fin 4096 → Fin 512 → ℝ}
    (hx : ∀ i k, x i k = (xr i k : EReal)) (i : Fin 4096) : sqn x i = ((sqnR xr i : ℝ) : EReal) := by
  unfold sqn sqnR
  rw [coe_sum]
  exact Finset.sum_congr rfl fun k _ => by rw [hx, EReal.coe_mul]

theorem cross_coe (hs : ∀ i k, s i k = (sr i k : EReal)) (hp : ∀ i k, p i k = (pr i k : EReal))
    (i j : Fin 4096) : cross s p i j = ((crossR sr pr i j : ℝ) : EReal) := by
  unfold cross crossR
  rw [coe_sum]
  exact Finset.sum_congr rfl fun k _ => by rw [hs, hp, EReal.coe_mul]

theorem pos_coe (hs : ∀ i k, s i k = (sr i k : EReal)) (hp : ∀ i k, p i k = (pr i k : EReal))
    (j : Fin 4096) : pos s p j = ((posR sr pr j : ℝ) : EReal) := by
  unfold pos posR
  have h : (∑ k : Fin 512, (s j k - p j k) * (s j k - p j k))
      = ((∑ k : Fin 512, (sr j k - pr j k) * (sr j k - pr j k) : ℝ) : EReal) := by
    rw [coe_sum]
    exact Finset.sum_congr rfl fun k _ => by rw [hs, hp, EReal.coe_mul, EReal.coe_sub]
  rw [h, sqrt_coe_of_nonneg (Finset.sum_nonneg fun k _ => mul_self_nonneg _)]

theorem neg_coe (hs : ∀ i k, s i k = (sr i k : EReal)) (hp : ∀ i k, p i k = (pr i k : EReal))
    (i j : Fin 4096) : neg s p i j = ((negR sr pr i j : ℝ) : EReal) := by
  unfold neg negR
  rw [sqn_coe hp, sqn_coe hs, cross_coe hs hp, two_eq_coe, ← EReal.coe_add, ← EReal.coe_mul, ← EReal.coe_sub,
    ← EReal.coe_zero, ← coe_max, sqrt_coe_of_nonneg (le_max_right _ _)]

theorem shifted_summand_coe (hs : ∀ i k, s i k = (sr i k : EReal)) (hp : ∀ i k, p i k = (pr i k : EReal))
    (i j : Fin 4096) :
    max ((pos s p j + margin) - neg s p i j) 0 = ((shiftedSummandR sr pr marginR i j : ℝ) : EReal) := by
  unfold shiftedSummandR
  rw [pos_coe hs hp, neg_coe hs hp, margin_eq_coe, ← EReal.coe_add, ← EReal.coe_sub, ← EReal.coe_zero, ← coe_max]

theorem masked_summand_coe (hs : ∀ i k, s i k = (sr i k : EReal)) (hp : ∀ i k, p i k = (pr i k : EReal))
    (i j : Fin 4096) :
    max (((pos s p j - neg s p i j) + margin) * ((1 : EReal) - (if i = j then (1 : EReal) else 0))) 0
      = ((maskedSummandR sr pr marginR i j : ℝ) : EReal) := by
  unfold maskedSummandR
  have hmask : ((1 : EReal) - (if i = j then (1 : EReal) else 0))
      = ((1 - (if i = j then (1 : ℝ) else 0) : ℝ) : EReal) := by
    by_cases h : i = j
    · rw [if_pos h, if_pos h, EReal.coe_sub, EReal.coe_one]
    · rw [if_neg h, if_neg h, EReal.coe_sub, EReal.coe_one, EReal.coe_zero]
  rw [hmask, pos_coe hs hp, neg_coe hs hp, margin_eq_coe, ← EReal.coe_sub, ← EReal.coe_add, ← EReal.coe_mul,
    ← EReal.coe_zero, ← coe_max]

end Coercions

/-! ## The two arrangements agree -/

theorem shifted_eq_masked (s p : Fin 4096 → Fin 512 → EReal)
    (hs : ∀ i k, ∃ r : ℝ, s i k = (r : EReal)) (hp : ∀ i k, ∃ r : ℝ, p i k = (r : EReal)) :
    Cert.Hinge.shifted s p = Cert.Hinge.masked s p := by
  choose sr hs using hs
  choose pr hp using hp
  have hS : (∑ i : Fin 4096, ∑ j : Fin 4096, max ((pos s p j + margin) - neg s p i j) 0)
      = ((∑ i : Fin 4096, ∑ j : Fin 4096, shiftedSummandR sr pr marginR i j : ℝ) : EReal) := by
    rw [coe_sum]
    refine Finset.sum_congr rfl fun i _ => ?_
    rw [coe_sum]
    exact Finset.sum_congr rfl fun j _ => shifted_summand_coe hs hp i j
  have hM : masked s p
      = ((∑ i : Fin 4096, ∑ j : Fin 4096, maskedSummandR sr pr marginR i j : ℝ) : EReal) := by
    unfold masked
    rw [coe_sum]
    refine Finset.sum_congr rfl fun i _ => ?_
    rw [coe_sum]
    exact Finset.sum_congr rfl fun j _ => masked_summand_coe hs hp i j
  have hR := sum_shiftedSummandR sr pr marginR marginR_nonneg
  rw [Fintype.card_fin, Nat.cast_ofNat] at hR
  unfold shifted
  rw [hS, hM, offset_eq_coe, ← EReal.coe_sub, hR]

end Cert.Hinge

end
-- ==== Proof.Bridge.lean ====
/-
  The kernel program's result as a function of the launched arrays. Reading the boundaries of @main in order: the first region
  leaves the row sums of squares of the sketches and of the photos, the aligned distances plus the margin, and the two arrays
  themselves (a change of format is the identity on the extended reals); the two transposes turn two of those columns into rows;
  the second region leaves, in row `i`, the four column blocks' hinge sums added onto zero in order; the final sum adds the rows
  onto zero and the subtraction takes the constant off. That is the blocked total, which is the shifted total by regrouping a
  finite sum, which on finite inputs is the masked total.
-/
import proofs.«124219_j11227044511928_2_alg».proof.Proof.FrameKernelIdeal.Run
import proofs.«124219_j11227044511928_2_alg».proof.Proof.Value0
import proofs.«124219_j11227044511928_2_alg».proof.Proof.Value1
import proofs.«124219_j11227044511928_2_alg».proof.Proof.HostStretch
import proofs.«124219_j11227044511928_2_alg».proof.Proof.BlocksAlgebra
import proofs.«124219_j11227044511928_2_alg».proof.Proof.Algebra

noncomputable section

namespace Cert.Hinge.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-- The sketches as launched, by row and coordinate. -/
abbrev sOf : Fin 4096 → Fin 512 → EReal := fun i k => m ((c : Thread nD τ).loc main_arg0) (ix2 i k)
/-- The photos as launched. -/
abbrev pOf : Fin 4096 → Fin 512 → EReal := fun i k => m ((c : Thread nD τ).loc main_arg1) (ix2 i k)

/-- The transposes write only their two results. -/
theorem keep1 (b : Ref sig .tc) (h : b ∉ hostOps1_W) : W2 m ρ c (Proc.devRef .tc b) = W1 m ρ c (Proc.devRef .tc b) :=
  StableHlo.after_of_writes_sub hostOps1 _ hostOps1_writes h

/-! ## What the second region finds in its five input arrays -/

theorem photos_at (i : Fin 4096) (k : Fin 512) : VW2 m ρ c main_v0_4 (ix2 i k) = pOf m c i k := by
  show W2 m ρ c (Proc.devRef .tc main_v0_4) (ix2 i k) = _
  rw [keep1 m ρ c main_v0_4 (by decide), show W1 m ρ c (Proc.devRef .tc main_v0_4) = (dat0 (VW0 m ρ) c).arrAt 6 cfg0.N from W1_arr m ρ c 6]
  exact K0.arr6 (VW0 m ρ) c i k
theorem sketches_at (i : Fin 4096) (k : Fin 512) : VW2 m ρ c main_v0_3 (ix2 i k) = sOf m c i k := by
  show W2 m ρ c (Proc.devRef .tc main_v0_3) (ix2 i k) = _
  rw [keep1 m ρ c main_v0_3 (by decide), show W1 m ρ c (Proc.devRef .tc main_v0_3) = (dat0 (VW0 m ρ) c).arrAt 5 cfg0.N from W1_arr m ρ c 5]
  exact K0.arr5 (VW0 m ρ) c i k
theorem photo_norms_at (i : Fin 4096) : VW2 m ρ c main_v0_1 (ix2 i (0 : Fin 1)) = Cert.Hinge.sqn (pOf m c) i := by
  show W2 m ρ c (Proc.devRef .tc main_v0_1) (ix2 i (0 : Fin 1)) = _
  rw [keep1 m ρ c main_v0_1 (by decide), show W1 m ρ c (Proc.devRef .tc main_v0_1) = (dat0 (VW0 m ρ) c).arrAt 3 cfg0.N from W1_arr m ρ c 3]
  exact K0.arr3 (VW0 m ρ) c i
theorem sketch_norms_at (j : Fin 4096) : VW2 m ρ c main_v1 (ix2 (0 : Fin 1) j) = Cert.Hinge.sqn (sOf m c) j := by
  show StableHlo.after (hostOps1 (F := Ideal)) (W1 m ρ c) (Proc.devRef .tc main_v1) (ix2 (0 : Fin 1) j) = _
  rw [Host.v1_at, show W1 m ρ c (Proc.devRef .tc main_v0_0) = (dat0 (VW0 m ρ) c).arrAt 2 cfg0.N from W1_arr m ρ c 2]
  exact K0.arr2 (VW0 m ρ) c j
theorem shifted_dist_at (j : Fin 4096) : VW2 m ρ c main_v2 (ix2 (0 : Fin 1) j) = Cert.Hinge.pos (sOf m c) (pOf m c) j + Cert.Hinge.margin := by
  show StableHlo.after (hostOps1 (F := Ideal)) (W1 m ρ c) (Proc.devRef .tc main_v2) (ix2 (0 : Fin 1) j) = _
  rw [Host.v2_at, show W1 m ρ c (Proc.devRef .tc main_v0_2) = (dat0 (VW0 m ρ) c).arrAt 4 cfg0.N from W1_arr m ρ c 4]
  exact K0.arr4 (VW0 m ρ) c j

/-! ## The result -/

/-- The result buffer at the end holds the blocked total of the launched arrays. -/
theorem result_blocked : W4 m ρ c (Proc.devRef .tc main_v5) = fun _ => Cert.Hinge.blocked (sOf m c) (pOf m c) := by
  show StableHlo.after (hostOps2 (F := Ideal)) (W3 m ρ c) (Proc.devRef .tc main_v5) = _
  rw [Host.v5_eq]
  funext _
  unfold Cert.Hinge.blocked
  refine congrArg (fun z : EReal => ((0 : EReal) + z) - Cert.Hinge.offset) (Finset.sum_congr rfl fun i _ => ?_)
  rw [show W3 m ρ c (Proc.devRef .tc main_v3) = (dat1 (VW2 m ρ) c).arrAt 5 cfg1.N from W3_arr m ρ c 5]
  exact K1.arr5 (VW2 m ρ) (sOf m c) (pOf m c) c (photos_at m ρ c) (sketches_at m ρ c) (photo_norms_at m ρ c)
    (sketch_norms_at m ρ c) (shifted_dist_at m ρ c) i

/-- On finite inputs it is the masked total. -/
theorem result_masked (hs : ∀ i k, ∃ r : ℝ, sOf m c i k = (r : EReal)) (hp : ∀ i k, ∃ r : ℝ, pOf m c i k = (r : EReal)) :
    W4 m ρ c (Proc.devRef .tc main_v5) = fun _ => Cert.Hinge.masked (sOf m c) (pOf m c) :=
  (result_blocked m ρ c).trans (funext fun _ =>
    (Cert.Hinge.blocked_eq_shifted _ _).trans (Cert.Hinge.shifted_eq_masked _ _ hs hp))

end Cert.Hinge.Bridge

end
-- ==== Proof.RefRows.lean ====
/-
  The reference program's row quantities read at an index: the aligned distance, the two squared norms and the
  inner product of a photo row with a sketch row are the specification's, term by term.
-/
import proofs.«124219_j11227044511928_2_alg».proof.Proof.Gen.ReferenceIdeal.Read
import proofs.«124219_j11227044511928_2_alg».proof.Proof.Spec
import Idealize.ShloMosaic.Lib.ValueIdx
import Idealize.ShloMosaic.PureOps.Ideal.Laws

noncomputable section

open scoped BigOperators

namespace Cert.Hinge.Ref

open Idealize.ShloMosaic Idealize.ShloMosaic.ValueIdx Cert.ReferenceIdeal Cert.ReferenceIdeal.Read

/-- An argument array as a function of its row and column. -/
abbrev rows (x : FVec Ideal S4096x512 .f32) : Fin 4096 → Fin 512 → EReal := fun i k => x (ix2 i k)

/-- Row `a`, column `k` of an argument is where the row sums of row `a` read their `k`-th term. -/
theorem idx_row_v2 (a : Fin 4096) (k : Fin 512) : idx_main_v2 (ix1 a) k = ix2 a k :=
  funext fun d => Fin.ext (by match d with | ⟨0, _⟩ => rfl | ⟨1, _⟩ => rfl)
theorem idx_row_v5 (a : Fin 4096) (k : Fin 512) : idx_main_v5 (ix1 a) k = ix2 a k :=
  funext fun d => Fin.ext (by match d with | ⟨0, _⟩ => rfl | ⟨1, _⟩ => rfl)
theorem idx_row_v7 (a : Fin 4096) (k : Fin 512) : idx_main_v7 (ix1 a) k = ix2 a k :=
  funext fun d => Fin.ext (by match d with | ⟨0, _⟩ => rfl | ⟨1, _⟩ => rfl)
/-- The inner product of photo `a` with sketch `b` reads row `a` on the left and row `b` on the right. -/
theorem idx_dot_left (a b : Fin 4096) (k : Fin 512) : lidx_main_v8 (ix2 a b) k = ix2 a k :=
  funext fun d => Fin.ext (by match d with | ⟨0, _⟩ => rfl | ⟨1, _⟩ => rfl)
theorem idx_dot_right (a b : Fin 4096) (k : Fin 512) : ridx_main_v8 (ix2 a b) k = ix2 b k :=
  funext fun d => Fin.ext (by match d with | ⟨0, _⟩ => rfl | ⟨1, _⟩ => rfl)

/-- The aligned distance of row `a`: the root of the row sum of the squared differences. -/
theorem pos_at (x0 x1 : FVec Ideal S4096x512 .f32) (a : Fin 4096) :
    val_main_v3 (F := Ideal) x0 x1 (ix1 a) = pos (rows x0) (rows x1) a := by
  rw [val_main_v3_apply, val_main_v2_apply, val_main_cst_apply]
  simp only [Ideal.hostUnary_sqrt_def, Ideal.ofBits_def, Ideal.ofBits_zero_f32, zero_add]
  unfold pos
  refine congrArg Ideal.sqrt (Finset.sum_congr rfl fun k _ => ?_)
  rw [idx_row_v2, val_main_v1_apply, val_main_v0_apply]
  simp only [Ideal.mulf_def, Ideal.subf_def]

/-- The squared norm of sketch row `b`. -/
theorem sqn_sketch_at (x0 : FVec Ideal S4096x512 .f32) (b : Fin 4096) :
    val_main_v5 (F := Ideal) x0 (ix1 b) = sqn (rows x0) b := by
  rw [val_main_v5_apply, val_main_cst_0_apply]
  simp only [Ideal.ofBits_def, Ideal.ofBits_zero_f32, zero_add]
  unfold sqn
  refine Finset.sum_congr rfl fun k _ => ?_
  rw [idx_row_v5, val_main_v4_apply]
  simp only [Ideal.mulf_def]

/-- The squared norm of photo row `a`. -/
theorem sqn_photo_at (x1 : FVec Ideal S4096x512 .f32) (a : Fin 4096) :
    val_main_v7 (F := Ideal) x1 (ix1 a) = sqn (rows x1) a := by
  rw [val_main_v7_apply, val_main_cst_1_apply]
  simp only [Ideal.ofBits_def, Ideal.ofBits_zero_f32, zero_add]
  unfold sqn
  refine Finset.sum_congr rfl fun k _ => ?_
  rw [idx_row_v7, val_main_v6_apply]
  simp only [Ideal.mulf_def]

/-- The inner product of photo row `a` with sketch row `b`. -/
theorem cross_at (x0 x1 : FVec Ideal S4096x512 .f32) (a b : Fin 4096) :
    val_main_v8 (F := Ideal) x0 x1 (ix2 a b) = cross (rows x0) (rows x1) a b := by
  rw [val_main_v8_apply]
  unfold cross
  refine Finset.sum_congr rfl fun k _ => ?_
  rw [idx_dot_left, idx_dot_right]

end Cert.Hinge.Ref

end
-- ==== Proof.RefEntry.lean ====
/-
  One entry of the reference program's hinge matrix, read at row `a` and column `b`: the cross distance through the
  polarization identity, the aligned distance of column `b`, the mask that zeroes the diagonal, and the hinge.
-/
import proofs.«124219_j11227044511928_2_alg».proof.Proof.RefRows

noncomputable section

open scoped BigOperators

namespace Cert.Hinge.Ref

open Idealize.ShloMosaic Idealize.ShloMosaic.ValueIdx Cert.ReferenceIdeal Cert.ReferenceIdeal.Read

/-! ## Where the broadcasts read -/

/-- The photo norms, laid along the rows, read row `a`. -/
theorem idx_photo_norm (a b : Fin 4096) : idx_main_v9 (idx_main_v11 (ix2 a b)) = ix1 a :=
  funext fun d => Fin.ext (by match d with | ⟨0, _⟩ => rfl)
/-- The sketch norms, laid along the columns, read column `b`. -/
theorem idx_sketch_norm (a b : Fin 4096) : idx_main_v10 (idx_main_v12 (ix2 a b)) = ix1 b :=
  funext fun d => Fin.ext (by match d with | ⟨0, _⟩ => rfl)
/-- The aligned distances, laid along the columns, read column `b`. -/
theorem idx_pos (a b : Fin 4096) : idx_main_v20 (idx_main_v21 (ix2 a b)) = ix1 b :=
  funext fun d => Fin.ext (by match d with | ⟨0, _⟩ => rfl)

/-! ## The cross distance -/

/-- The cross distance of photo `a` and sketch `b`: the root of the clamped polarization expression. -/
theorem neg_at (x0 x1 : FVec Ideal S4096x512 .f32) (a b : Fin 4096) :
    val_main_v19 (F := Ideal) x0 x1 (ix2 a b) = neg (rows x0) (rows x1) a b := by
  rw [val_main_v19_apply, val_main_v18_apply, val_main_v16_apply, val_main_v13_apply, val_main_v11_apply,
    val_main_v9_apply, val_main_v12_apply, val_main_v10_apply, val_main_v15_apply, val_main_v14_apply,
    val_main_cst_2_apply, val_main_v17_apply, val_main_cst_3_apply, idx_photo_norm, idx_sketch_norm,
    sqn_photo_at, sqn_sketch_at, cross_at]
  simp only [Ideal.hostUnary_sqrt_def, Ideal.maximumf_def, Ideal.subf_def, Ideal.addf_def, Ideal.mulf_def,
    Ideal.ofBits_def, Ideal.ofBits_zero_f32]
  rfl

/-- The aligned distance, laid along the columns, at an entry. -/
theorem pos_entry_at (x0 x1 : FVec Ideal S4096x512 .f32) (a b : Fin 4096) :
    val_main_v21 (F := Ideal) x0 x1 (ix2 a b) = pos (rows x0) (rows x1) b := by
  rw [val_main_v21_apply, val_main_v20_apply, idx_pos, pos_at]

/-! ## The mask -/

/-- The binary32 pattern of one denotes one. -/
theorem ofBits_one_f32 : Ideal.ofBits .f32 0x3F800000#32 = 1 := by
  simp [Ideal.ofBits, Ideal.ieee, -EReal.coe_mul]; norm_num

/-- Row and column numbers below 4096 are equal as 32-bit words exactly when they are equal. -/
theorem word_eq_iff (a b : Fin 4096) : (BitVec.ofNat 32 a.val = BitVec.ofNat 32 b.val) ↔ a = b := by
  constructor
  · intro h
    have h' := congrArg BitVec.toNat h
    simp only [BitVec.toNat_ofNat] at h'
    have ha : a.val < 4096 := a.isLt
    have hb : b.val < 4096 := b.isLt
    exact Fin.ext (by omega)
  · rintro rfl; rfl

/-- The equality test of the row number against the column number, as an extended real: one on the diagonal, zero off it. -/
theorem diag_at (a b : Fin 4096) :
    val_main_v30 (F := Ideal) (ix2 a b) = if a = b then (1 : EReal) else 0 := by
  rw [val_main_v30_apply, val_main_v29_apply, val_main_v28_apply, val_main_v25_apply, val_main_v27_apply,
    val_main_c_apply, val_main_v26_apply]
  show (((IntOp.cmpi .eq (IntOp.addi (BitVec.ofNat 32 a.val) 0#32) (BitVec.ofNat 32 b.val)).toNat : ℝ) : EReal) = _
  have hadd : IntOp.addi (BitVec.ofNat 32 a.val) 0#32 = BitVec.ofNat 32 a.val := by
    unfold IntOp.addi; exact BitVec.add_zero _
  rw [hadd]
  unfold IntOp.cmpi
  by_cases h : a = b
  · subst h; simp
  · have hne : ¬ (BitVec.ofNat 32 a.val = BitVec.ofNat 32 b.val) := fun e => h ((word_eq_iff a b).1 e)
    simp [h, hne]

/-- The mask: one less the diagonal's indicator. -/
theorem mask_at (a b : Fin 4096) :
    val_main_v32 (F := Ideal) (ix2 a b) = (1 : EReal) - (if a = b then (1 : EReal) else 0) := by
  rw [val_main_v32_apply, val_main_v31_apply, val_main_cst_5_apply, diag_at]
  simp only [Ideal.subf_def, Ideal.ofBits_def, ofBits_one_f32]

/-! ## One entry -/

/-- The hinge matrix at row `a`, column `b`. -/
theorem entry_at (x0 x1 : FVec Ideal S4096x512 .f32) (a b : Fin 4096) :
    val_main_v34 (F := Ideal) x0 x1 (ix2 a b)
      = max (((pos (rows x0) (rows x1) b - neg (rows x0) (rows x1) a b) + margin)
          * ((1 : EReal) - (if a = b then (1 : EReal) else 0))) 0 := by
  rw [val_main_v34_apply, val_main_v33_apply, val_main_v24_apply, val_main_v22_apply, val_main_v23_apply,
    val_main_cst_4_apply, val_main_call0_v0_apply, val_main_call0_cst_apply, pos_entry_at, neg_at, mask_at]
  simp only [Ideal.maximumf_def, Ideal.subf_def, Ideal.addf_def, Ideal.mulf_def, Ideal.ofBits_def,
    Ideal.ofBits_zero_f32]
  rfl

end Cert.Hinge.Ref

end
-- ==== Proof.RefValue.lean ====
/-
  The reference program's value: the scalar it returns is the masked hinge total of the specification, the sum over
  all pairs (photo `a`, sketch `b`) of the hinge matrix's entries, and its run ends with that scalar and the two
  argument arrays unchanged.
-/
import proofs.«124219_j11227044511928_2_alg».proof.Proof.Gen.ReferenceIdeal.Read
import proofs.«124219_j11227044511928_2_alg».proof.Proof.Spec
import proofs.«124219_j11227044511928_2_alg».proof.Proof.RefEntry
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.Hinge.Ref

open Idealize.ShloMosaic Idealize.ShloMosaic.ValueIdx Cert.ReferenceIdeal Cert.ReferenceIdeal.Read

open Idealize.SL.Sem

/-- The program's result is the masked hinge total: zero plus the sum of the hinge matrix over its index set, which is
    the double sum over rows and columns of the specification's summand. -/
theorem value (x0 x1 : FVec Ideal Cert.ReferenceIdeal.S4096x512 .f32) :
    Cert.ReferenceIdeal.Read.val_main_v35 (F := Ideal) x0 x1
      = fun _ => Cert.Hinge.masked (fun i k => x0 (ValueIdx.ix2 i k)) (fun i k => x1 (ValueIdx.ix2 i k)) := by
  funext i0
  rw [val_main_v35_apply, val_main_cst_6_apply, ValueIdx.sum_idx2]
  simp only [Ideal.ofBits_def, Ideal.ofBits_zero_f32, zero_add]
  unfold masked
  exact Finset.sum_congr rfl fun a _ => Finset.sum_congr rfl fun b _ => entry_at x0 x1 a b

/-- Every weakly fair execution of the reference terminates with its result the masked hinge total of its two
    arguments, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v35)
          = (fun _ => Cert.Hinge.masked
              (fun i k => m ((c.tc : Thread Cert.ReferenceIdeal.nD Cert.ReferenceIdeal.τ).loc Cert.ReferenceIdeal.main_arg0) (ValueIdx.ix2 i k))
              (fun i k => m ((c.tc : Thread Cert.ReferenceIdeal.nD Cert.ReferenceIdeal.τ).loc Cert.ReferenceIdeal.main_arg1) (ValueIdx.ix2 i k)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.Read.val_main_v35_eq _ _).trans (value _ _)), (h c).2⟩)
    (Cert.ReferenceIdeal.Value.run (F := Ideal) m ρ)

end Cert.Hinge.Ref

end
-- ==== Proof.RefFrame.lean ====
/-
  The reference program's frame: every weakly fair execution terminates without a fault and leaves the two argument
  arrays as they were. It is the program's run with the result dropped.
-/
import proofs.«124219_j11227044511928_2_alg».proof.Defs
import proofs.«124219_j11227044511928_2_alg».proof.Proof.Gen.ReferenceIdeal
import proofs.«124219_j11227044511928_2_alg».proof.Proof.Gen.Pre_finite_inputs
import proofs.«124219_j11227044511928_2_alg».proof.Proof.Gen.ReferenceIdeal.Run

noncomputable section

namespace Cert.Hinge.Ref

open Idealize.ShloMosaic Idealize.SL.Sem

/-- The reference runs to the end from any memory, and its arguments end unchanged. -/
theorem frame : Cert.frame_ReferenceIdeal := fun m ρ _ =>
  (θ_run Cert.ReferenceIdeal.defs _ _).mono (fun _ h c => (h c).2) (Cert.ReferenceIdeal.Value.run (F := Ideal) m ρ)

end Cert.Hinge.Ref

end
-- ==== Proof.Finite.lean ====
/-
  Finiteness from the precondition. The precondition is the conjunction of two tests, one per argument array: every entry's
  absolute value lies strictly below `+∞`. An extended real `x` with `max x (−x) < +∞` is neither `+∞` nor `−∞`
  (at `−∞` the negation is `+∞`), so it is a real number. Hence, when the precondition holds, every entry of both
  arrays is the coercion of a real.
-/
import proofs.«124219_j11227044511928_2_alg».proof.Pre_finite_inputs
import proofs.«124219_j11227044511928_2_alg».proof.Proof.Gen.Pre_finite_inputs
import Idealize.ShloMosaic.Lib.ReduceAll
import Idealize.ShloMosaic.Lib.IdealHost

noncomputable section

namespace Cert.Hinge

open Idealize.ShloMosaic Idealize.ShloMosaic.ValueIdx Cert.Pre_finite_inputs

/-- The rank-0 shape has one index. -/
instance subsingleton_scalarIdx : Subsingleton S_.Idx := ⟨fun a b => funext fun d => d.elim0⟩

/-- The binary32 pattern of `+inf` denotes `+∞`. -/
theorem ofBits_inf_f32 : Ideal.ofBits .f32 0x7F800000#32 = (⊤ : EReal) := by
  simp [Ideal.ofBits, Ideal.ieee]

/-- An extended real whose absolute value `max x (−x)` lies strictly below `+∞` is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- A strict comparison that answered `1` holds. -/
theorem lt_of_cmp_olt_eq_one {a b : EReal} (h : Ideal.cmp .olt a b = 1#1) : a < b := by
  by_contra hn
  simp [Ideal.cmp, hn] at h

/-- One test `all(|x| < +inf)` that came out `1` makes every entry of `x` a real number. -/
theorem forall_real_of_all_abs_lt_inf [Facts] (x : FVec Ideal S4096x512 .f32)
    (e : Host.reduce IntOp.andi
        (cmpf .olt (Host.absf x)
          (broadcastInDim S4096x512 ![] Facts.bcast_S_S4096x512 (constant (F := Ideal) S_ .f32 0x7F800000#32)))
        (constantI S_ 1 1#1) Facts.reducesTo_S4096x512_S_d0_1 Facts.h_S_ ix0 = 1#1)
    (i : S4096x512.Idx) : ∃ r : ℝ, x i = (r : EReal) := by
  have h1 := Host.reduce_andi_all _ _ _ _ _ e i
  rw [cmpf_apply, broadcastInDim_scalar_apply, constant_apply, ofBits_inf_f32] at h1
  exact exists_real_of_abs_lt_top (x i) (lt_of_cmp_olt_eq_one h1)

/-- Under the precondition every entry of both argument arrays is a real number. -/
theorem finite_of_pre [Facts] (x0 x1 : FVec Ideal S4096x512 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨forall_real_of_all_abs_lt_inf x0 ha, forall_real_of_all_abs_lt_inf x1 hb⟩

end Cert.Hinge

end
-- ==== Proof.lean ====
/-
  The certificate: a blocked triplet hinge loss (two kernel regions) against its plain reference, on finite inputs.

  The reference sums, over all pairs (i, j) of 4096 photos and 4096 sketches, the hinge `max((pos j − neg i j + c) · (1 − [i = j]), 0)`:
  `pos j` the distance of sketch j to photo j, `neg i j` the distance of photo i to sketch j through the polarization identity
  (clamped at zero before the root), `c` the margin, the diagonal zeroed before the hinge. The kernel program computes the row
  sums of squares and `pos + c` in a first region, and in a second region accumulates, over four column blocks, the row sums of
  `max((pos j + c) − neg i j, 0)` over ALL pairs, the diagonal included; it then sums the rows and takes off `K = 4096 · c`.
  On the extended reals the two agree on finite inputs: off the diagonal the summands differ by a regrouping of a real sum; on
  the diagonal `neg i i = pos i` exactly, so each of the 4096 diagonal summands is `max(c, 0) = c`, and together they are `K`.

  The three frames: each program runs to the end from any memory satisfying the precondition, faults nowhere and leaves its two
  argument arrays as launched — for the two kernel programs by running the two regions as segments of @main (the second region's
  accumulator carried in the region's invariant from grid point to grid point), for the reference by its run. No operation was
  rewritten between the kernel program and its idealization, so that conjunct asks nothing.
-/
import proofs.«124219_j11227044511928_2_alg».proof.Defs
import proofs.«124219_j11227044511928_2_alg».proof.Proof.Gen.Kernel
import proofs.«124219_j11227044511928_2_alg».proof.Proof.Gen.KernelIdeal
import proofs.«124219_j11227044511928_2_alg».proof.Proof.Gen.ReferenceIdeal
import proofs.«124219_j11227044511928_2_alg».proof.Proof.Gen.Pre_finite_inputs
import proofs.«124219_j11227044511928_2_alg».proof.Proof.FrameKernel.Run
import proofs.«124219_j11227044511928_2_alg».proof.Proof.FrameKernelIdeal.Run
import proofs.«124219_j11227044511928_2_alg».proof.Proof.Bridge
import proofs.«124219_j11227044511928_2_alg».proof.Proof.RefValue
import proofs.«124219_j11227044511928_2_alg».proof.Proof.RefFrame
import proofs.«124219_j11227044511928_2_alg».proof.Proof.Finite
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- On finite inputs the kernel program's result is the masked hinge total of its arguments, and so is the reference's of
    arguments that agree with them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Hinge.finite_of_pre _ _ (hpre c)
  refine ⟨fun c => fun _ => Cert.Hinge.masked (Cert.Hinge.Bridge.sOf m c) (Cert.Hinge.Bridge.pOf m c), ?_, ?_⟩
  · refine (θ_run (Cert.KernelIdeal.defs (F := Ideal)) _ _).mono (fun r h c => ⟨?_, ?_, ?_⟩) (Cert.KernelIdeal.Hand.run (F := Ideal) m ρ)
    · exact (h c _ (Cert.KernelIdeal.Hand.mem_uc Cert.KernelIdeal.main_v5 (by decide))).trans
        (Cert.Hinge.Bridge.result_masked m ρ c (fun i k => (hfin c).1 (ValueIdx.ix2 i k)) (fun i k => (hfin c).2 (ValueIdx.ix2 i k)))
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · refine (θ_run (Cert.ReferenceIdeal.defs (F := Ideal)) _ _).mono (fun r h c => ⟨(h c).1.trans ?_, (h c).2⟩) (Cert.Hinge.Ref.run m' ρ')
    rw [(hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, Cert.Hinge.Ref.frame, trivial, algebraic⟩

end Cert.Proof

end
